-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x128 : Shape := ⟨2, ![131072, 128]⟩
abbrev S131072 : Shape := ⟨1, ![131072]⟩
abbrev S128x512 : Shape := ⟨2, ![128, 512]⟩
abbrev S512 : Shape := ⟨1, ![512]⟩
abbrev S512x512 : Shape := ⟨2, ![512, 512]⟩
abbrev S512x1 : Shape := ⟨2, ![512, 1]⟩
abbrev S1 : Shape := ⟨1, ![1]⟩
abbrev S_ : Shape := ⟨0, ![]⟩

class Facts : Prop where
  bcast_S_S131072x128 : S_.BroadcastsInDim S131072x128 (![] : Fin 0 → Fin S131072x128.rank)
  reducesTo_S131072x128_S_d0_1 : S131072x128.ReducesTo [0, 1] S_
  h_S_ : 0 < S_.numel
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg16 : FVec F S1 .f32) (main_v63 : IVec S_ 1) (main_v67 : IVec S_ 1) : IVec S_ 1 :=
  let main_v68 : IVec S_ 1 := andi main_v63 main_v67
  let main_v69 : FVec F S1 .f32 := Host.absf main_arg16
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  main_v73

def fn_part3 {F : FTy → Type} [FloatOps F] (main_arg13 : FVec F S512 .f32) (main_arg14 : FVec F S512x1 .f32) (main_arg15 : FVec F S1 .f32) (main_arg16 : FVec F S1 .f32) (main_v48 : IVec S_ 1) (main_v49 : FVec F S512x512 .f32) (main_v50 : FVec F S512x512 .f32) : IVec S_ 1 :=
  let main_v51 : IVec S512x512 1 := cmpf .olt main_v49 main_v50
  let main_c_19 : IVec S_ 1 := constantI S_ 1 1#1
  let main_v52 : IVec S_ 1 := (fun x v => Host.reduce IntOp.andi x v reducesTo_S512x512_S_d0_1 h_S_) main_v51 main_c_19
  let main_v53 : IVec S_ 1 := andi main_v48 main_v52
  let main_v54 : FVec F S512 .f32 := Host.absf main_arg13
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S512x1 .f32 := Host.absf main_arg14
  let main_cst_22 : FVec F S_ .f32 := constant S_ .f32 0x7F800000#32
  let main_v60 : FVec F S512x1 .f32 := broadcastInDim S512x1 ![] bcast_S_S512x1 main_cst_22
  let main_v61 : IVec S512x1 1 := cmpf .olt main_v59 main_v60
  let main_c_23 : IVec S_ 1 := constantI S_ 1 1#1
  let main_v62 : IVec S_ 1 := (fun x v => Host.reduce IntOp.andi x v reducesTo_S512x1_S_d0_1 h_S_) main_v61 main_c_23
  let main_v63 : IVec S_ 1 := andi main_v58 main_v62
  let main_v64 : FVec F S1 .f32 := Host.absf main_arg15
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_arg16 main_v63 main_v67

def fn_part2 {F : FTy → Type} [FloatOps F] (main_arg9 : FVec F S1 .f32) (main_arg10 : FVec F S128x512 .f32) (main_arg11 : FVec F S512 .f32) (main_arg12 : FVec F S512x512 .f32) (main_arg13 : FVec F S512 .f32) (main_arg14 : FVec F S512x1 .f32) (main_arg15 : FVec F S1 .f32) (main_arg16 : FVec F S1 .f32) (main_v33 : IVec S_ 1) : IVec S_ 1 :=
  let main_v34 : FVec F S1 .f32 := Host.absf main_arg9
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_v39 : FVec F S128x512 .f32 := Host.absf main_arg10
  let main_cst_14 : FVec F S_ .f32 := constant S_ .f32 0x7F800000#32
  let main_v40 : FVec F S128x512 .f32 := broadcastInDim S128x512 ![] bcast_S_S128x512 main_cst_14
  let main_v41 : IVec S128x512 1 := cmpf .olt main_v39 main_v40
  let main_c_15 : IVec S_ 1 := constantI S_ 1 1#1
  let main_v42 : IVec S_ 1 := (fun x v => Host.reduce IntOp.andi x v reducesTo_S128x512_S_d0_1 h_S_) main_v41 main_c_15
  let main_v43 : IVec S_ 1 := andi main_v38 main_v42
  let main_v44 : FVec F S512 .f32 := Host.absf main_arg11
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512x512 .f32 := Host.absf main_arg12
  let main_cst_18 : FVec F S_ .f32 := constant S_ .f32 0x7F800000#32
  let main_v50 : FVec F S512x512 .f32 := broadcastInDim S512x512 ![] bcast_S_S512x512 main_cst_18
  fn_part3 (F := F) main_arg13 main_arg14 main_arg15 main_arg16 main_v48 main_v49 main_v50

def fn_part1 {F : FTy → Type} [FloatOps F] (main_arg6 : FVec F S512 .f32) (main_arg7 : FVec F S512x1 .f32) (main_arg8 : FVec F S1 .f32) (main_arg9 : FVec F S1 .f32) (main_arg10 : FVec F S128x512 .f32) (main_arg11 : FVec F S512 .f32) (main_arg12 : FVec F S512x512 .f32) (main_arg13 : FVec F S512 .f32) (main_arg14 : FVec F S512x1 .f32) (main_arg15 : FVec F S1 .f32) (main_arg16 : FVec F S1 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg6
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x1 .f32 := Host.absf main_arg7
  let main_cst_8 : FVec F S_ .f32 := constant S_ .f32 0x7F800000#32
  let main_v25 : FVec F S512x1 .f32 := broadcastInDim S512x1 ![] bcast_S_S512x1 main_cst_8
  let main_v26 : IVec S512x1 1 := cmpf .olt main_v24 main_v25
  let main_c_9 : IVec S_ 1 := constantI S_ 1 1#1
  let main_v27 : IVec S_ 1 := (fun x v => Host.reduce IntOp.andi x v reducesTo_S512x1_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg9 main_arg10 main_arg11 main_arg12 main_arg13 main_arg14 main_arg15 main_arg16 main_v33

def fn {F : FTy → Type} [FloatOps F] (main_arg0 : FVec F S131072x128 .f32) (main_arg1 : IVec S131072 32) (main_arg2 : IVec S131072 32) (main_arg3 : FVec F S128x512 .f32) (main_arg4 : FVec F S512 .f32) (main_arg5 : FVec F S512x512 .f32) (main_arg6 : FVec F S512 .f32) (main_arg7 : FVec F S512x1 .f32) (main_arg8 : FVec F S1 .f32) (main_arg9 : FVec F S1 .f32) (main_arg10 : FVec F S128x512 .f32) (main_arg11 : FVec F S512 .f32) (main_arg12 : FVec F S512x512 .f32) (main_arg13 : FVec F S512 .f32) (main_arg14 : FVec F S512x1 .f32) (main_arg15 : FVec F S1 .f32) (main_arg16 : FVec F S1 .f32) : IVec S_ 1 :=
  let main_v0 : FVec F S131072x128 .f32 := Host.absf main_arg0
  let main_cst : FVec F S_ .f32 := constant S_ .f32 0x7F800000#32
  let main_v1 : FVec F S131072x128 .f32 := broadcastInDim S131072x128 ![] bcast_S_S131072x128 main_cst
  let main_v2 : IVec S131072x128 1 := cmpf .olt main_v0 main_v1
  let main_c : IVec S_ 1 := constantI S_ 1 1#1
  let main_v3 : IVec S_ 1 := (fun x v => Host.reduce IntOp.andi x v reducesTo_S131072x128_S_d0_1 h_S_) main_v2 main_c
  let main_v4 : FVec F S128x512 .f32 := Host.absf main_arg3
  let main_cst_0 : FVec F S_ .f32 := constant S_ .f32 0x7F800000#32
  let main_v5 : FVec F S128x512 .f32 := broadcastInDim S128x512 ![] bcast_S_S128x512 main_cst_0
  let main_v6 : IVec S128x512 1 := cmpf .olt main_v4 main_v5
  let main_c_1 : IVec S_ 1 := constantI S_ 1 1#1
  let main_v7 : IVec S_ 1 := (fun x v => Host.reduce IntOp.andi x v reducesTo_S128x512_S_d0_1 h_S_) main_v6 main_c_1
  let main_v8 : IVec S_ 1 := andi main_v3 main_v7
  let main_v9 : FVec F S512 .f32 := Host.absf main_arg4
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg5
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S131072x128 : Shape := ⟨2, ![131072, 128]⟩
abbrev S131072 : Shape := ⟨1, ![131072]⟩
abbrev S128x512 : Shape := ⟨2, ![128, 512]⟩
abbrev S512 : Shape := ⟨1, ![512]⟩
abbrev S512x512 : Shape := ⟨2, ![512, 512]⟩
abbrev S512x1 : Shape := ⟨2, ![512, 1]⟩
abbrev S1 : Shape := ⟨1, ![1]⟩
abbrev S2048x128 : Shape := ⟨2, ![2048, 128]⟩
abbrev S2048 : Shape := ⟨1, ![2048]⟩
abbrev S2048x512 : Shape := ⟨2, ![2048, 512]⟩
abbrev S1x512 : Shape := ⟨2, ![1, 512]⟩
abbrev S2048x1 : Shape := ⟨2, ![2048, 1]⟩
abbrev S1x1 : Shape := ⟨2, ![1, 1]⟩
abbrev S_ : Shape := ⟨0, ![]⟩
abbrev S1024 : Shape := ⟨1, ![1024]⟩
abbrev S131072x1 : Shape := ⟨2, ![131072, 1]⟩
abbrev S1024x1 : Shape := ⟨2, ![1024, 1]⟩

abbrev nBuf : Space → Nat
  | .hbm => 33
  | .vmem => 20
  | .smem => 0
  | _ => 0

abbrev bufTy : (tb : Table) → Fin (tcTables nBuf tb) → BufTy
  | .hbm, ⟨0, _⟩ => ⟨S131072x128, .f32⟩
  | .hbm, ⟨1, _⟩ => ⟨S131072, .i32⟩
  | .hbm, ⟨2, _⟩ => ⟨S131072, .i32⟩
  | .hbm, ⟨3, _⟩ => ⟨S128x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x1, .f32⟩
  | .hbm, ⟨8, _⟩ => ⟨S1, .f32⟩
  | .hbm, ⟨9, _⟩ => ⟨S1, .f32⟩
  | .hbm, ⟨10, _⟩ => ⟨S128x512, .f32⟩
  | .hbm, ⟨11, _⟩ => ⟨S512, .f32⟩
  | .hbm, ⟨12, _⟩ => ⟨S512x512, .f32⟩
  | .hbm, ⟨13, _⟩ => ⟨S512, .f32⟩
  | .hbm, ⟨14, _⟩ => ⟨S512x1, .f32⟩
  | .hbm, ⟨15, _⟩ => ⟨S1, .f32⟩
  | .hbm, ⟨16, _⟩ => ⟨S1, .f32⟩
  | .hbm, ⟨17, _⟩ => ⟨S131072, .f32⟩
  | .hbm, ⟨18, _⟩ => ⟨S_, .f32⟩
  | .hbm, ⟨19, _⟩ => ⟨S1024, .f32⟩
  | .hbm, ⟨20, _⟩ => ⟨S131072x1, .i32⟩
  | .hbm, ⟨21, _⟩ => ⟨S1024, .f32⟩
  | .hbm, ⟨22, _⟩ => ⟨S_, .f32⟩
  | .hbm, ⟨23, _⟩ => ⟨S131072, .f32⟩
  | .hbm, ⟨24, _⟩ => ⟨S_, .f32⟩
  | .hbm, ⟨25, _⟩ => ⟨S1024, .f32⟩
  | .hbm, ⟨26, _⟩ => ⟨S131072x1, .i32⟩
  | .hbm, ⟨27, _⟩ => ⟨S1024, .f32⟩
  | .hbm, ⟨28, _⟩ => ⟨S_, .f32⟩
  | .hbm, ⟨29, _⟩ => ⟨S1024, .f32⟩
  | .hbm, ⟨30, _⟩ => ⟨S1024, .f32⟩
  | .hbm, ⟨31, _⟩ => ⟨S1024, .f32⟩
  | .hbm, ⟨32, _⟩ => ⟨S1024x1, .f32⟩
  | .local _ .vmem, ⟨0, _⟩ => ⟨S2048x128, .f32⟩
  | .local _ .vmem, ⟨1, _⟩ => ⟨S2048x128, .f32⟩
  | .local _ .vmem, ⟨2, _⟩ => ⟨S2048, .i32⟩
  | .local _ .vmem, ⟨3, _⟩ => ⟨S2048, .i32⟩
  | .local _ .vmem, ⟨4, _⟩ => ⟨S128x512, .f32⟩
  | .local _ .vmem, ⟨5, _⟩ => ⟨S512, .f32⟩
  | .local _ .vmem, ⟨6, _⟩ => ⟨S512x512, .f32⟩
  | .local _ .vmem, ⟨7, _⟩ => ⟨S512, .f32⟩
  | .local _ .vmem, ⟨8, _⟩ => ⟨S512x1, .f32⟩
  | .local _ .vmem, ⟨9, _⟩ => ⟨S1, .f32⟩
  | .local _ .vmem, ⟨10, _⟩ => ⟨S1, .f32⟩
  | .local _ .vmem, ⟨11, _⟩ => ⟨S128x512, .f32⟩
  | .local _ .vmem, ⟨12, _⟩ => ⟨S512, .f32⟩
  | .local _ .vmem, ⟨13, _⟩ => ⟨S512x512, .f32⟩
  | .local _ .vmem, ⟨14, _⟩ => ⟨S512, .f32⟩
  | .local _ .vmem, ⟨15, _⟩ => ⟨S512x1, .f32⟩
  | .local _ .vmem, ⟨16, _⟩ => ⟨S1, .f32⟩
  | .local _ .vmem, ⟨17, _⟩ => ⟨S1, .f32⟩
  | .local _ .vmem, ⟨18, _⟩ => ⟨S2048, .f32⟩
  | .local _ .vmem, ⟨19, _⟩ => ⟨S2048, .f32⟩
  | _, _ => ⟨S131072x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_cst : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst_0 : Ref sig .tc := ⟨.hbm, 22, rfl⟩
abbrev main_v4 : Ref sig .tc := ⟨.hbm, 23, rfl⟩
abbrev main_cst_1 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst_2 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg16_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem16_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S2048 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  inb_S2048x128_S2048x128_0_0 : ∀ a, (![0, 0] : Fin 2 → Nat) a + S2048x128.size a ≤ S2048x128.size a
  h_S2048x128 : 0 < S2048x128.numel
  bitsLt_bf16_f32 : FTy.bits .bf16 < FTy.bits .f32
  inb_S128x512_S128x512_0_0 : ∀ a, (![0, 0] : Fin 2 → Nat) a + S128x512.size a ≤ S128x512.size a
  h_S128x512 : 0 < S128x512.numel
  inb_S512_S512_0 : ∀ a, (![0] : Fin 1 → Nat) a + S512.size a ≤ S512.size a
  h_S512 : 0 < S512.numel
  shapeCasts_S512_S1x512 : S512.ShapeCasts S1x512
  broadcasts_S1x512_S2048x512 : S1x512.Broadcasts S2048x512
  inb_S512x512_S512x512_0_0 : ∀ a, (![0, 0] : Fin 2 → Nat) a + S512x512.size a ≤ S512x512.size a
  h_S512x512 : 0 < S512x512.numel
  inb_S512x1_S512x1_0_0 : ∀ a, (![0, 0] : Fin 2 → Nat) a + S512x1.size a ≤ S512x1.size a
  h_S512x1 : 0 < S512x1.numel
  inb_S1_S1_0 : ∀ a, (![0] : Fin 1 → Nat) a + S1.size a ≤ S1.size a
  h_S1 : 0 < S1.numel
  shapeCasts_S1_S1x1 : S1.ShapeCasts S1x1
  broadcasts_S1x1_S2048x1 : S1x1.Broadcasts S2048x1
  shapeCasts_S2048x1_S2048 : S2048x1.ShapeCasts S2048
  inb_S2048_S2048_0 : ∀ a, (![0] : Fin 1 → Nat) a + S2048.size a ≤ S2048.size a
  h_S2048 : 0 < S2048.numel
  bcast_S_S1024 : S_.BroadcastsInDim S1024 (![] : Fin 0 → Fin S1024.rank)
  bcast_S131072_S131072x1_0 : S131072.BroadcastsInDim S131072x1 (![0] : Fin 1 → Fin S131072x1.rank)
  bcast_S_S131072 : S_.BroadcastsInDim S131072 (![] : Fin 0 → Fin S131072.rank)
  bcast_S1024_S1024x1_0 : S1024.BroadcastsInDim S1024x1 (![0] : Fin 1 → Fin S1024x1.rank)
  dot_S2048x128_S128x512_S2048x512_1_0_0_1_n_n_wf : DotDims.WF S2048x128 S128x512 S2048x512 [1] [0] [0] [1] [] []
  dot_S2048x512_S512x512_S2048x512_1_0_0_1_n_n_wf : DotDims.WF S2048x512 S512x512 S2048x512 [1] [0] [0] [1] [] []
  dot_S2048x512_S512x1_S2048x1_1_0_0_1_n_n_wf : DotDims.WF S2048x512 S512x1 S2048x1 [1] [0] [0] [1] [] []
  scatter_S1024_S131072x1_S131072_n_0_0_1_wf : ScatterDims.WF S1024 S131072x1 S131072 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S131072x128.size a
  hwx0_0 : ∀ i : grid0.Coords, EltTy.bits .f32 = 32 ∨ (Rect.block (s := S131072x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048.size a ≤ S131072.size a
  hwx0_1 : ∀ i : grid0.Coords, EltTy.bits .i32 = 32 ∨ (Rect.block (s := S131072) S2048.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x512.size a ≤ S128x512.size a
  hwx0_2 : ∀ i : grid0.Coords, EltTy.bits .f32 = 32 ∨ (Rect.block (s := S128x512) S128x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S512.size a
  hwx0_3 : ∀ i : grid0.Coords, EltTy.bits .f32 = 32 ∨ (Rect.block (s := S512) S512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .f32 = 32 ∨ (Rect.block (s := S512x512) S512x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S512.size a
  hwx0_5 : ∀ i : grid0.Coords, EltTy.bits .f32 = 32 ∨ (Rect.block (s := S512) S512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x1.size a ≤ S512x1.size a
  hwx0_6 : ∀ i : grid0.Coords, EltTy.bits .f32 = 32 ∨ (Rect.block (s := S512x1) S512x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1.size a ≤ S1.size a
  hwx0_7 : ∀ i : grid0.Coords, EltTy.bits .f32 = 32 ∨ (Rect.block (s := S1) S1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1.size a ≤ S1.size a
  hwx0_8 : ∀ i : grid0.Coords, EltTy.bits .f32 = 32 ∨ (Rect.block (s := S1) S1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x512.size a ≤ S128x512.size a
  hwx0_9 : ∀ i : grid0.Coords, EltTy.bits .f32 = 32 ∨ (Rect.block (s := S128x512) S128x512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512.size a ≤ S512.size a
  hwx0_10 : ∀ i : grid0.Coords, EltTy.bits .f32 = 32 ∨ (Rect.block (s := S512) S512.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S512x512.size a ≤ S512x512.size a
  hwx0_11 : ∀ i : grid0.Coords, EltTy.bits .f32 = 32 ∨ (Rect.block (s := S512x512) S512x512.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S512.size a ≤ S512.size a
  hwx0_12 : ∀ i : grid0.Coords, EltTy.bits .f32 = 32 ∨ (Rect.block (s := S512) S512.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S512x1.size a ≤ S512x1.size a
  hwx0_13 : ∀ i : grid0.Coords, EltTy.bits .f32 = 32 ∨ (Rect.block (s := S512x1) S512x1.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1.size a ≤ S1.size a
  hwx0_14 : ∀ i : grid0.Coords, EltTy.bits .f32 = 32 ∨ (Rect.block (s := S1) S1.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1.size a ≤ S1.size a
  hwx0_15 : ∀ i : grid0.Coords, EltTy.bits .f32 = 32 ∨ (Rect.block (s := S1) S1.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S2048.size a ≤ S131072.size a
  hwx0_16 : ∀ i : grid0.Coords, EltTy.bits .f32 = 32 ∨ (Rect.block (s := S131072) S2048.size (cc0_transform_16 i) (hinb0_16 i)).WholeWords (EltTy.packing .f32)

variable [Facts₀]

def dot_S2048x128_S128x512_S2048x512_1_0_0_1_n_n : DotDims S2048x128 S128x512 S2048x512 where
  lhsContracting := [1]
  rhsContracting := [0]
  lhsNonContracting := [0]
  rhsNonContracting := [1]
  lhsBatch := []
  rhsBatch := []
  wf := dot_S2048x128_S128x512_S2048x512_1_0_0_1_n_n_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S2048x512_S512x1_S2048x1_1_0_0_1_n_n : DotDims S2048x512 S512x1 S2048x1 where
  lhsContracting := [1]
  rhsContracting := [0]
  lhsNonContracting := [0]
  rhsNonContracting := [1]
  lhsBatch := []
  rhsBatch := []
  wf := dot_S2048x512_S512x1_S2048x1_1_0_0_1_n_n_wf
def scatter_S1024_S131072x1_S131072_n_0_0_1 : ScatterDims S1024 S131072x1 S131072 where
  updateWindowDims := []
  insertedWindowDims := [0]
  scatterDimsToOperandDims := [0]
  indexVectorDim := 1
  wf := scatter_S1024_S131072x1_S131072_n_0_0_1_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S512x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg10) S128x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg11) S512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg12) S512x512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg13) S512.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg14) S512x1.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg15) S1.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg16) S1.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v0) S2048.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S131072x128 : Shape := ⟨2, ![131072, 128]⟩
abbrev S131072 : Shape := ⟨1, ![131072]⟩
abbrev S128x512 : Shape := ⟨2, ![128, 512]⟩
abbrev S512 : Shape := ⟨1, ![512]⟩
abbrev S512x512 : Shape := ⟨2, ![512, 512]⟩
abbrev S512x1 : Shape := ⟨2, ![512, 1]⟩
abbrev S1 : Shape := ⟨1, ![1]⟩
abbrev S131072x512 : Shape := ⟨2, ![131072, 512]⟩
abbrev S1x512 : Shape := ⟨2, ![1, 512]⟩
abbrev S131072x1 : Shape := ⟨2, ![131072, 1]⟩
abbrev S1x1 : Shape := ⟨2, ![1, 1]⟩
abbrev S_ : Shape := ⟨0, ![]⟩
abbrev S1024 : Shape := ⟨1, ![1024]⟩
abbrev S1024x1 : Shape := ⟨2, ![1024, 1]⟩

abbrev nBuf : Space → Nat
  | .hbm => 72
  | .vmem => 0
  | .smem => 0
  | _ => 0

abbrev bufTy : (tb : Table) → Fin (tcTables nBuf tb) → BufTy
  | .hbm, ⟨0, _⟩ => ⟨S131072x128, .f32⟩
  | .hbm, ⟨1, _⟩ => ⟨S131072, .i32⟩
  | .hbm, ⟨2, _⟩ => ⟨S131072, .i32⟩
  | .hbm, ⟨3, _⟩ => ⟨S128x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x1, .f32⟩
  | .hbm, ⟨8, _⟩ => ⟨S1, .f32⟩
  | .hbm, ⟨9, _⟩ => ⟨S1, .f32⟩
  | .hbm, ⟨10, _⟩ => ⟨S128x512, .f32⟩
  | .hbm, ⟨11, _⟩ => ⟨S512, .f32⟩
  | .hbm, ⟨12, _⟩ => ⟨S512x512, .f32⟩
  | .hbm, ⟨13, _⟩ => ⟨S512, .f32⟩
  | .hbm, ⟨14, _⟩ => ⟨S512x1, .f32⟩
  | .hbm, ⟨15, _⟩ => ⟨S1, .f32⟩
  | .hbm, ⟨16, _⟩ => ⟨S1, .f32⟩
  | .hbm, ⟨17, _⟩ => ⟨S131072x512, .f32⟩
  | .hbm, ⟨18, _⟩ => ⟨S1x512, .f32⟩
  | .hbm, ⟨19, _⟩ => ⟨S131072x512, .f32⟩
  | .hbm, ⟨20, _⟩ => ⟨S131072x512, .f32⟩
  | .hbm, ⟨21, _⟩ => ⟨S131072x512, .f32⟩
  | .hbm, ⟨22, _⟩ => ⟨S131072x512, .f32⟩
  | .hbm, ⟨23, _⟩ => ⟨S1x512, .f32⟩
  | .hbm, ⟨24, _⟩ => ⟨S131072x512, .f32⟩
  | .hbm, ⟨25, _⟩ => ⟨S131072x512, .f32⟩
  | .hbm, ⟨26, _⟩ => ⟨S131072x512, .f32⟩
  | .hbm, ⟨27, _⟩ => ⟨S131072x1, .f32⟩
  | .hbm, ⟨28, _⟩ => ⟨S1x1, .f32⟩
  | .hbm, ⟨29, _⟩ => ⟨S131072x1, .f32⟩
  | .hbm, ⟨30, _⟩ => ⟨S131072x1, .f32⟩
  | .hbm, ⟨31, _⟩ => ⟨S1x1, .f32⟩
  | .hbm, ⟨32, _⟩ => ⟨S131072x1, .f32⟩
  | .hbm, ⟨33, _⟩ => ⟨S131072x1, .f32⟩
  | .hbm, ⟨34, _⟩ => ⟨S131072, .f32⟩
  | .hbm, ⟨35, _⟩ => ⟨S131072x512, .f32⟩
  | .hbm, ⟨36, _⟩ => ⟨S1x512, .f32⟩
  | .hbm, ⟨37, _⟩ => ⟨S131072x512, .f32⟩
  | .hbm, ⟨38, _⟩ => ⟨S131072x512, .f32⟩
  | .hbm, ⟨39, _⟩ => ⟨S131072x512, .f32⟩
  | .hbm, ⟨40, _⟩ => ⟨S131072x512, .f32⟩
  | .hbm, ⟨41, _⟩ => ⟨S1x512, .f32⟩
  | .hbm, ⟨42, _⟩ => ⟨S131072x512, .f32⟩
  | .hbm, ⟨43, _⟩ => ⟨S131072x512, .f32⟩
  | .hbm, ⟨44, _⟩ => ⟨S131072x512, .f32⟩
  | .hbm, ⟨45, _⟩ => ⟨S131072x1, .f32⟩
  | .hbm, ⟨46, _⟩ => ⟨S1x1, .f32⟩
  | .hbm, ⟨47, _⟩ => ⟨S131072x1, .f32⟩
  | .hbm, ⟨48, _⟩ => ⟨S131072x1, .f32⟩
  | .hbm, ⟨49, _⟩ => ⟨S1x1, .f32⟩
  | .hbm, ⟨50, _⟩ => ⟨S131072x1, .f32⟩
  | .hbm, ⟨51, _⟩ => ⟨S131072x1, .f32⟩
  | .hbm, ⟨52, _⟩ => ⟨S131072, .f32⟩
  | .hbm, ⟨53, _⟩ => ⟨S_, .i32⟩
  | .hbm, ⟨54, _⟩ => ⟨S131072, .i32⟩
  | .hbm, ⟨55, _⟩ => ⟨S131072, .i1⟩
  | .hbm, ⟨56, _⟩ => ⟨S131072, .f32⟩
  | .hbm, ⟨57, _⟩ => ⟨S_, .f32⟩
  | .hbm, ⟨58, _⟩ => ⟨S1024, .f32⟩
  | .hbm, ⟨59, _⟩ => ⟨S131072x1, .i32⟩
  | .hbm, ⟨60, _⟩ => ⟨S1024, .f32⟩
  | .hbm, ⟨61, _⟩ => ⟨S_, .f32⟩
  | .hbm, ⟨62, _⟩ => ⟨S131072, .f32⟩
  | .hbm, ⟨63, _⟩ => ⟨S_, .f32⟩
  | .hbm, ⟨64, _⟩ => ⟨S1024, .f32⟩
  | .hbm, ⟨65, _⟩ => ⟨S131072x1, .i32⟩
  | .hbm, ⟨66, _⟩ => ⟨S1024, .f32⟩
  | .hbm, ⟨67, _⟩ => ⟨S_, .f32⟩
  | .hbm, ⟨68, _⟩ => ⟨S1024, .f32⟩
  | .hbm, ⟨69, _⟩ => ⟨S1024, .f32⟩
  | .hbm, ⟨70, _⟩ => ⟨S1024, .f32⟩
  | .hbm, ⟨71, _⟩ => ⟨S1024x1, .f32⟩
  | _, _ => ⟨S131072x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_c : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_0 : Ref sig .tc := ⟨.hbm, 61, rfl⟩
abbrev main_v42 : Ref sig .tc := ⟨.hbm, 62, rfl⟩
abbrev main_cst_1 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_2 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S131072x512_0_1 : S1x512.BroadcastsInDim S131072x512 (![0, 1] : Fin 2 → Fin S131072x512.rank)
  bcast_S1_S1x1_1 : S1.BroadcastsInDim S1x1 (![1] : Fin 1 → Fin S1x1.rank)
  bcast_S1x1_S131072x1_0_1 : S1x1.BroadcastsInDim S131072x1 (![0, 1] : Fin 2 → Fin S131072x1.rank)
  shapeCasts_S131072x1_S131072 : S131072x1.ShapeCasts S131072
  bcast_S_S131072 : S_.BroadcastsInDim S131072 (![] : Fin 0 → Fin S131072.rank)
  bcast_S_S1024 : S_.BroadcastsInDim S1024 (![] : Fin 0 → Fin S1024.rank)
  bcast_S131072_S131072x1_0 : S131072.BroadcastsInDim S131072x1 (![0] : Fin 1 → Fin S131072x1.rank)
  bcast_S1024_S1024x1_0 : S1024.BroadcastsInDim S1024x1 (![0] : Fin 1 → Fin S1024x1.rank)
  dot_S131072x128_S128x512_S131072x512_1_0_0_1_n_n_wf : DotDims.WF S131072x128 S128x512 S131072x512 [1] [0] [0] [1] [] []
  dot_S131072x512_S512x512_S131072x512_1_0_0_1_n_n_wf : DotDims.WF S131072x512 S512x512 S131072x512 [1] [0] [0] [1] [] []
  dot_S131072x512_S512x1_S131072x1_1_0_0_1_n_n_wf : DotDims.WF S131072x512 S512x1 S131072x1 [1] [0] [0] [1] [] []
  scatter_S1024_S131072x1_S131072_n_0_0_1_wf : ScatterDims.WF S1024 S131072x1 S131072 [] [0] [0] 1

variable [Facts₀]

def dot_S131072x128_S128x512_S131072x512_1_0_0_1_n_n : DotDims S131072x128 S128x512 S131072x512 where
  lhsContracting := [1]
  rhsContracting := [0]
  lhsNonContracting := [0]
  rhsNonContracting := [1]
  lhsBatch := []
  rhsBatch := []
  wf := dot_S131072x128_S128x512_S131072x512_1_0_0_1_n_n_wf
def dot_S131072x512_S512x512_S131072x512_1_0_0_1_n_n : DotDims S131072x512 S512x512 S131072x512 where
  lhsContracting := [1]
  rhsContracting := [0]
  lhsNonContracting := [0]
  rhsNonContracting := [1]
  lhsBatch := []
  rhsBatch := []
  wf := dot_S131072x512_S512x512_S131072x512_1_0_0_1_n_n_wf
def dot_S131072x512_S512x1_S131072x1_1_0_0_1_n_n : DotDims S131072x512 S512x1 S131072x1 where
  lhsContracting := [1]
  rhsContracting := [0]
  lhsNonContracting := [0]
  rhsNonContracting := [1]
  lhsBatch := []
  rhsBatch := []
  wf := dot_S131072x512_S512x1_S131072x1_1_0_0_1_n_n_wf
def scatter_S1024_S131072x1_S131072_n_0_0_1 : ScatterDims S1024 S131072x1 S131072 where
  updateWindowDims := []
  insertedWindowDims := [0]
  scatterDimsToOperandDims := [0]
  indexVectorDim := 1
  wf := scatter_S1024_S131072x1_S131072_n_0_0_1_wf

class Facts : Prop extends Facts₀ where

variable [Facts]
-- ==== Proof.LibPlainDot.lean ====
/-
  A plain matrix product's contraction, re-indexed by the contracted coordinate.

  A contraction record over `[M, K] × [K, N] → [M, N]` with ONE contracted axis sums over indices of a
  rank-one shape; what a value proof wants is the sum over `k : Fin K` of the left operand at `(row, k)`
  times the right at `(k, column)`. The record enters only through six facts, each decidable at a literal
  record: its contraction shape has rank one and extent `K`, and the operand index at an output index and a
  contraction index has the expected coordinates.
-/
import Idealize.ShloMosaic.PureOps.Ideal.Laws
import Idealize.ShloMosaic.Lib.ValueIdx

noncomputable section

namespace Cert.Lib.PlainDot

open Idealize.ShloMosaic Idealize.ShloMosaic.ValueIdx

/-- The sum over a one-axis contraction, as the sum over `k : Fin K` of left `(j 0, k)` times right `(k, j 1)`. -/
theorem sum_rows_cols {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (l : (⟨2, ![M, K]⟩ : Shape).Idx → EReal) (r : (⟨2, ![K, N]⟩ : Shape).Idx → EReal)
    (j : (⟨2, ![M, N]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have el : D.lhsIdx j ((contrEquiv1 D K hr hs).symm k) = ix2 (j 0) k := funext fun a => Fin.ext (by
    match a with
    | ⟨0, _⟩ => exact hl0 _ _
    | ⟨1, _⟩ => exact (hl1 _ _).trans hk)
  have er : D.rhsIdx j ((contrEquiv1 D K hr hs).symm k) = ix2 k (j 1) := funext fun a => Fin.ext (by
    match a with
    | ⟨0, _⟩ => exact (hr0 _ _).trans hk
    | ⟨1, _⟩ => exact hr1 _ _)
  exact congrArg₂ (· * ·) (congrArg l el) (congrArg r er)

end Cert.Lib.PlainDot

end
-- ==== Proof.LibDenseLayer.lean ====
/-
  One dense layer read at an entry, on a kernel's side and on the host's.

  A dense layer is a matrix product plus a bias. A kernel body prints it as a `tpu.matmul` into a zero accumulator
  with a one-row bias array `[1, N]` broadcast over the rows; jax on the host prints the bias as a vector `[N]`
  placed as the one row of `[1, N]` and that row repeated over the rows (two `broadcast_in_dim`s). At the extended
  reals both read, at `(p, c)`, the sum over the contracted coordinate of left `(p, k)` times right `(k, c)`, plus
  the bias at `c`. The matrix product's part is `Cert.Lib.PlainDot.sum_rows_cols` (this file imports that one; a
  host `dot_general` is that lemma after `Ideal.dotGeneral_apply`). Imports only the Idealize library besides.
-/
import proofs.«144105_j3659312136806_1_alg».proof.Proof.LibPlainDot
import Idealize.ShloMosaic.Lib.ValueLayout
import Idealize.ShloMosaic.Lib.Pipeline.Value
import Idealize.ShloMosaic.Lib.ValueIdx
import Idealize.ShloMosaic.PureOps.Ideal.Laws

noncomputable section

namespace Cert.Lib.DenseLayer

open Idealize.ShloMosaic Idealize.ShloMosaic.ValueIdx

/-! ## A kernel's layer: matmul into zero plus a broadcast bias row -/

/-- A matmul of `[M, K]` by `[K, N]` into the zero accumulator, plus a `[1, N]` row broadcast over the `M` rows,
    read at `(p, c)`: the sum over the contracted coordinate of left `(p, k)` times right `(k, c)`, plus the row's
    entry at `c`. The contraction record enters through the six facts of a plain matrix product. -/
theorem layer_apply {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    {φ₁ φ₂ : FTy} (L : FVec Ideal ⟨2, ![M, K]⟩ φ₁) (R : FVec Ideal ⟨2, ![K, N]⟩ φ₂)
    (b : FVec Ideal ⟨2, ![1, N]⟩ .f32) (hb : (⟨2, ![1, N]⟩ : Shape).Broadcasts ⟨2, ![M, N]⟩) (p : Fin M) (c : Fin N) :
    addf (matmul D none L R (constant (F := Ideal) ⟨2, ![M, N]⟩ .f32 0x00000000#32)) (broadcastTo ⟨2, ![M, N]⟩ b hb) (ix2 p c)
      = (∑ k : Fin K, L (ix2 p k) * R (ix2 k c)) + b (ix2 (0 : Fin 1) c) := by
  rw [addf_apply, broadcastTo_1b_ab_apply]
  simp only [matmul]
  rw [Ideal.matmul_constant_zero_apply]
  exact congrArg (· + b (ix2 (0 : Fin 1) c)) (Cert.Lib.PlainDot.sum_rows_cols D hr hs hl0 hl1 hr0 hr1 L R (ix2 p c))

/-! ## The host's bias: a vector broadcast over the rows in two steps -/

/-- A vector `[N]` placed as the one row of `[1, N]` and that row repeated over `M` rows reads, at `(r, k)`, the
    vector at `k` (for `N ≠ 1`: a unit axis would be read at `0`, which is the same entry, but the library's
    lemma asks which case it is). -/
theorem bias_apply {α : Type} {M N : ℕ} (hN : N ≠ 1) (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (k : Fin N) :
    broadcastInDim ⟨2, ![M, N]⟩ ![0, 1] h2 (broadcastInDim ⟨2, ![1, N]⟩ ![1] h1 b) (ix2 r k) = b (ix1 k) :=
  (broadcastInDim_apply ![0, 1] h2 _ (ix2 r k) (ix2 (⟨0, Nat.one_pos⟩ : Fin 1) k) (fun a => match a with
      | ⟨0, _⟩ => by show (0 : ℕ) = if (1 : ℕ) = 1 then 0 else r.val; rw [if_pos rfl]
      | ⟨1, _⟩ => by show k.val = if N = 1 then 0 else k.val; rw [if_neg hN])).trans
    (broadcastInDim_apply ![1] h1 b (ix2 (⟨0, Nat.one_pos⟩ : Fin 1) k) (ix1 k) (fun a => match a with
      | ⟨0, _⟩ => by show k.val = if N = 1 then 0 else k.val; rw [if_neg hN]))

end Cert.Lib.DenseLayer

end
-- ==== Proof.LibMlpLayers.lean ====
/-
  The layers of a small perceptron as a kernel body prints them, read at an entry on the extended reals.

  A kernel loads a layer's bias as a vector `[N]`, casts it to the one row `[1, N]` and broadcasts that row over the
  `M` rows of a `tpu.matmul` into the zero accumulator. Read at `(p, c)` the sum is over the contracted coordinate of
  left `(p, k)` times right `(k, c)`, plus the bias at `c` (`Cert.Lib.DenseLayer.layer_apply`, which this file
  imports, with the cast of the vector to a row read back): `linear_apply`; under `math.tanh`: `tanh_layer_apply`.
  A read-out layer has ONE output column: its matmul is `[M, K] × [K, 1]`, two scalars `[1]` are each cast to
  `[1, 1]`, broadcast down the column and added, and the column `[M, 1]` is cast to the vector `[M]`; read at `p` it is
  the sum over `k` of left `(p, k)` times right `(k, 0)`, plus the first scalar, plus the second: `readout_apply`.
  `shapeCast_a1_a_apply` is the cast of a column to a vector read at an index. Every statement takes the
  contraction record through the six facts of a plain matrix product, each decidable at a literal record, and the
  operands at any float formats (a change of format is the identity on the extended reals).
-/
import proofs.«144105_j3659312136806_1_alg».proof.Proof.LibDenseLayer
import Idealize.ShloMosaic.Lib.ValueLayout
import Idealize.ShloMosaic.Lib.Pipeline.Value
import Idealize.ShloMosaic.Lib.ValueIdx
import Idealize.ShloMosaic.PureOps.Ideal.Laws

noncomputable section

namespace Cert.Lib.MlpLayers

open Idealize.ShloMosaic Idealize.ShloMosaic.ValueIdx

/-- A column `[a, 1]` cast to the vector `[a]` reads, at `i`, the column at `(i, 0)`: the two indices have the same
    row-major position. -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- A matmul into the zero accumulator plus a bias VECTOR `[N]` (cast to a row, the row broadcast over the rows),
    read at `(p, c)`: the sum over the contracted coordinate, plus the vector at `c`. -/
theorem linear_apply {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    {φ₁ φ₂ : FTy} (L : FVec Ideal ⟨2, ![M, K]⟩ φ₁) (R : FVec Ideal ⟨2, ![K, N]⟩ φ₂)
    (b : FVec Ideal ⟨1, ![N]⟩ .f32) (hc : (⟨1, ![N]⟩ : Shape).ShapeCasts ⟨2, ![1, N]⟩)
    (hb : (⟨2, ![1, N]⟩ : Shape).Broadcasts ⟨2, ![M, N]⟩) (p : Fin M) (c : Fin N) :
    addf (matmul D none L R (constant (F := Ideal) ⟨2, ![M, N]⟩ .f32 0x00000000#32))
        (broadcastTo ⟨2, ![M, N]⟩ (shapeCast ⟨2, ![1, N]⟩ b hc) hb) (ix2 p c)
      = (∑ k : Fin K, L (ix2 p k) * R (ix2 k c)) + b (ix1 c) := by
  rw [Cert.Lib.DenseLayer.layer_apply D hr hs hl0 hl1 hr0 hr1 L R _ hb p c, shapeCast_a_1a_apply]

/-- The same under `math.tanh`: a hidden unit. -/
theorem tanh_layer_apply {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    {φ₁ φ₂ : FTy} (L : FVec Ideal ⟨2, ![M, K]⟩ φ₁) (R : FVec Ideal ⟨2, ![K, N]⟩ φ₂)
    (b : FVec Ideal ⟨1, ![N]⟩ .f32) (hc : (⟨1, ![N]⟩ : Shape).ShapeCasts ⟨2, ![1, N]⟩)
    (hb : (⟨2, ![1, N]⟩ : Shape).Broadcasts ⟨2, ![M, N]⟩) (p : Fin M) (c : Fin N) :
    tanh (addf (matmul D none L R (constant (F := Ideal) ⟨2, ![M, N]⟩ .f32 0x00000000#32))
        (broadcastTo ⟨2, ![M, N]⟩ (shapeCast ⟨2, ![1, N]⟩ b hc) hb)) (ix2 p c)
      = Ideal.tanh ((∑ k : Fin K, L (ix2 p k) * R (ix2 k c)) + b (ix1 c)) :=
  congrArg Ideal.tanh (linear_apply D hr hs hl0 hl1 hr0 hr1 L R b hc hb p c)

/-- A read-out: a matmul `[M, K] × [K, 1]` into zero, plus two scalars `[1]` each cast to `[1, 1]` and broadcast
    down the column, the column cast to the vector `[M]`; read at `p`: the sum over the contracted coordinate of left
    `(p, k)` times right `(k, 0)`, plus the first scalar, plus the second. -/
theorem readout_apply {M K : ℕ} (D : DotDims ⟨2, ![M, K]⟩ ⟨2, ![K, 1]⟩ ⟨2, ![M, 1]⟩)
    (hr : D.contr.rank = 1) (hs : D.contr.size ⟨0, by omega⟩ = K)
    (hl0 : ∀ (j : (⟨2, ![M, 1]⟩ : Shape).Idx) (q : D.contr.Idx), (D.lhsIdx j q 0).val = (j 0).val)
    (hl1 : ∀ (j : (⟨2, ![M, 1]⟩ : Shape).Idx) (q : D.contr.Idx), (D.lhsIdx j q 1).val = (q ⟨0, by omega⟩).val)
    (hr0 : ∀ (j : (⟨2, ![M, 1]⟩ : Shape).Idx) (q : D.contr.Idx), (D.rhsIdx j q 0).val = (q ⟨0, by omega⟩).val)
    (hr1 : ∀ (j : (⟨2, ![M, 1]⟩ : Shape).Idx) (q : D.contr.Idx), (D.rhsIdx j q 1).val = (j 1).val)
    {φ₁ φ₂ : FTy} (L : FVec Ideal ⟨2, ![M, K]⟩ φ₁) (R : FVec Ideal ⟨2, ![K, 1]⟩ φ₂)
    (b s : FVec Ideal ⟨1, ![1]⟩ .f32) (hc : (⟨1, ![1]⟩ : Shape).ShapeCasts ⟨2, ![1, 1]⟩)
    (hb : (⟨2, ![1, 1]⟩ : Shape).Broadcasts ⟨2, ![M, 1]⟩) (hv : (⟨2, ![M, 1]⟩ : Shape).ShapeCasts ⟨1, ![M]⟩)
    (p : Fin M) :
    shapeCast ⟨1, ![M]⟩ (addf (addf (matmul D none L R (constant (F := Ideal) ⟨2, ![M, 1]⟩ .f32 0x00000000#32))
        (broadcastTo ⟨2, ![M, 1]⟩ (shapeCast ⟨2, ![1, 1]⟩ b hc) hb))
        (broadcastTo ⟨2, ![M, 1]⟩ (shapeCast ⟨2, ![1, 1]⟩ s hc) hb)) hv (ix1 p)
      = (∑ k : Fin K, L (ix2 p k) * R (ix2 k (0 : Fin 1))) + b (ix1 (0 : Fin 1)) + s (ix1 (0 : Fin 1)) := by
  rw [shapeCast_a1_a_apply, addf_apply, linear_apply D hr hs hl0 hl1 hr0 hr1 L R b hc hb p 0,
    broadcastTo_1b_ab_apply, shapeCast_a_1a_apply]

end Cert.Lib.MlpLayers

end
-- ==== Proof.AtomNet.lean ====
/-
  One atom's energy, on the extended reals.

  An atom is a row `x` of 128 descriptors. An expert is seven arrays: `W1 : [128, 512]`, `b1 : [512]`,
  `W2 : [512, 512]`, `b2 : [512]`, `W3 : [512, 1]`, `b3 : [1]`, `off : [1]`. Its network is two hidden layers of 512
  units, each `tanh` of a matrix product plus a bias, and a linear read-out to one number plus two scalars:

      h¹_j = tanh (∑_i x_i · W1[i, j] + b1[j])
      h²_k = tanh (∑_j h¹_j · W2[j, k] + b2[k])
      e    = ∑_k h²_k · W3[k, 0] + b3[0] + off[0]

  An atom of type `0` takes the first expert's energy, any other type the second's. Nothing here is specific to a
  tiling: a kernel that evaluates a block of rows and a host program that evaluates all rows at once both compute
  `net` of each row, and the sums are over the same index sets in both, so no law of arithmetic beyond the
  definitions is needed to identify them (in particular nothing that would fail at an infinity).
-/
import Idealize.ShloMosaic.PureOps.Ideal
import Idealize.ShloMosaic.Lib.ValueIdx

noncomputable section

namespace Cert.AtomNet

open Idealize.ShloMosaic Idealize.ShloMosaic.ValueIdx

/-- One expert's seven parameter arrays, as extended-real arrays over their literal shapes. -/
structure Expert where
  W1 : (⟨2, ![128, 512]⟩ : Shape).Idx → EReal
  b1 : (⟨1, ![512]⟩ : Shape).Idx → EReal
  W2 : (⟨2, ![512, 512]⟩ : Shape).Idx → EReal
  b2 : (⟨1, ![512]⟩ : Shape).Idx → EReal
  W3 : (⟨2, ![512, 1]⟩ : Shape).Idx → EReal
  b3 : (⟨1, ![1]⟩ : Shape).Idx → EReal
  off : (⟨1, ![1]⟩ : Shape).Idx → EReal

/-- A hidden unit of the first layer: `tanh` of the row against column `j` of `W1`, plus `b1[j]`. -/
def hidden1 (W1 : (⟨2, ![128, 512]⟩ : Shape).Idx → EReal) (b1 : (⟨1, ![512]⟩ : Shape).Idx → EReal)
    (x : Fin 128 → EReal) (j : Fin 512) : EReal :=
  Ideal.tanh ((∑ i : Fin 128, x i * W1 (ix2 i j)) + b1 (ix1 j))

/-- A hidden unit of the second layer: `tanh` of the first layer against column `k` of `W2`, plus `b2[k]`. -/
def hidden2 (W2 : (⟨2, ![512, 512]⟩ : Shape).Idx → EReal) (b2 : (⟨1, ![512]⟩ : Shape).Idx → EReal)
    (h : Fin 512 → EReal) (k : Fin 512) : EReal :=
  Ideal.tanh ((∑ j : Fin 512, h j * W2 (ix2 j k)) + b2 (ix1 k))

/-- The read-out: the second layer against the one column of `W3`, plus the two scalars, in the order the
    programs add them. -/
def readout (W3 : (⟨2, ![512, 1]⟩ : Shape).Idx → EReal) (b3 off : (⟨1, ![1]⟩ : Shape).Idx → EReal)
    (h : Fin 512 → EReal) : EReal :=
  (∑ k : Fin 512, h k * W3 (ix2 k (0 : Fin 1))) + b3 (ix1 (0 : Fin 1)) + off (ix1 (0 : Fin 1))

/-- An expert's energy of a row. -/
def net (P : Expert) (x : Fin 128 → EReal) : EReal :=
  readout P.W3 P.b3 P.off (hidden2 P.W2 P.b2 (hidden1 P.W1 P.b1 x))

/-- The routing: type `0` takes the first energy, any other type the second. -/
def routed (t : BitVec 32) (eA eB : EReal) : EReal :=
  Scalar.select (IntOp.cmpi .eq t 0#32) eA eB

/-- Every atom's energy: atom `r`'s row of descriptors through the expert its type selects. -/
def atomEnergy (G : (⟨2, ![131072, 128]⟩ : Shape).Idx → EReal) (ty : (⟨1, ![131072]⟩ : Shape).Idx → BitVec 32)
    (A B : Expert) : (⟨1, ![131072]⟩ : Shape).Idx → EReal := fun i =>
  routed (ty i) (net A fun k => G (ix2 (i 0) k)) (net B fun k => G (ix2 (i 0) k))

/-- The same over one block of 2048 atoms (what one grid point of the kernel evaluates). -/
def blockEnergy (G : (⟨2, ![2048, 128]⟩ : Shape).Idx → EReal) (ty : (⟨1, ![2048]⟩ : Shape).Idx → BitVec 32)
    (A B : Expert) : (⟨1, ![2048]⟩ : Shape).Idx → EReal := fun i =>
  routed (ty i) (net A fun k => G (ix2 (i 0) k)) (net B fun k => G (ix2 (i 0) k))

end Cert.AtomNet

end
-- ==== Proof.KernelBlock.lean ====
/-
  What one grid point of the kernel stores, entry by entry.

  At a grid point the body holds a block of 2048 atoms: their descriptors `x0 : [2048, 128]`, their types
  `x1 : [2048]`, and the two experts' parameter arrays `x2 … x8` and `x9 … x15`, whole. It stores one vector of 2048
  energies. Entry `p` of that vector is the routed energy of row `p`: the first expert's network of the row if the
  row's type is `0`, else the second's (`stored_apply`). The casts to a narrower float format before each matrix
  product are the identity on the extended reals, each `tpu.matmul` into the zero accumulator is the plain sum over
  the contracted coordinate, and the bias vectors enter as rows broadcast over the 2048 rows; so each printed layer
  read at an entry is the layer of `Cert.AtomNet` at that row (the three lemmas `first_layer`, `second_layer`,
  `read_out`, which instantiate the general layer lemmas at the body's three contraction records).
-/
import proofs.«144105_j3659312136806_1_alg».proof.Proof.Gen.KernelIdeal.Frame
import proofs.«144105_j3659312136806_1_alg».proof.Proof.LibMlpLayers
import proofs.«144105_j3659312136806_1_alg».proof.Proof.AtomNet
import Idealize.ShloMosaic.Lib.Pipeline.Value
import Idealize.ShloMosaic.Lib.ValueIdx

set_option maxRecDepth 16384

noncomputable section

namespace Cert.KernelIdeal.Block

open Cert.KernelIdeal Cert.KernelIdeal.Gen Idealize.ShloMosaic Idealize.ShloMosaic.ValueIdx
open Cert.AtomNet Cert.Lib.MlpLayers

/-! ## The three contraction records are plain matrix products

Each contracts the left operand's axis 1 with the right operand's axis 0 and has no batch axis: the left index at
an output index `i` and a contraction index `q` is `(i 0, q)`, the right index `(q, i 1)`. -/

theorem dA_l0 (i : S2048x512.Idx) (q : dot_S2048x128_S128x512_S2048x512_1_0_0_1_n_n.contr.Idx) :
    (dot_S2048x128_S128x512_S2048x512_1_0_0_1_n_n.lhsIdx i q 0).val = (i 0).val := by
  unfold DotDims.lhsIdx
  rw [dif_neg (show ¬(0 : Fin S2048x128.rank) ∈ dot_S2048x128_S128x512_S2048x512_1_0_0_1_n_n.lhsBatch by decide), dif_pos (show (0 : Fin S2048x128.rank) ∈ dot_S2048x128_S128x512_S2048x512_1_0_0_1_n_n.lhsNonContracting by decide)]
  rfl
theorem dA_l1 (i : S2048x512.Idx) (q : dot_S2048x128_S128x512_S2048x512_1_0_0_1_n_n.contr.Idx) :
    (dot_S2048x128_S128x512_S2048x512_1_0_0_1_n_n.lhsIdx i q 1).val = (q ⟨0, by decide⟩).val :=
  dot_S2048x128_S128x512_S2048x512_1_0_0_1_n_n.lhsIdx_val_of_single rfl i q
theorem dA_r0 (i : S2048x512.Idx) (q : dot_S2048x128_S128x512_S2048x512_1_0_0_1_n_n.contr.Idx) :
    (dot_S2048x128_S128x512_S2048x512_1_0_0_1_n_n.rhsIdx i q 0).val = (q ⟨0, by decide⟩).val :=
  dot_S2048x128_S128x512_S2048x512_1_0_0_1_n_n.rhsIdx_val_of_single rfl i q
theorem dA_r1 (i : S2048x512.Idx) (q : dot_S2048x128_S128x512_S2048x512_1_0_0_1_n_n.contr.Idx) :
    (dot_S2048x128_S128x512_S2048x512_1_0_0_1_n_n.rhsIdx i q 1).val = (i 1).val := by
  unfold DotDims.rhsIdx
  rw [dif_neg (show ¬(1 : Fin S128x512.rank) ∈ dot_S2048x128_S128x512_S2048x512_1_0_0_1_n_n.rhsBatch by decide), dif_pos (show (1 : Fin S128x512.rank) ∈ dot_S2048x128_S128x512_S2048x512_1_0_0_1_n_n.rhsNonContracting by decide)]
  rfl

theorem dB_l0 (i : S2048x512.Idx) (q : dot_S2048x512_S512x512_S2048x512_1_0_0_1_n_n.contr.Idx) :
    (dot_S2048x512_S512x512_S2048x512_1_0_0_1_n_n.lhsIdx i q 0).val = (i 0).val := by
  unfold DotDims.lhsIdx
  rw [dif_neg (show ¬(0 : Fin S2048x512.rank) ∈ dot_S2048x512_S512x512_S2048x512_1_0_0_1_n_n.lhsBatch by decide), dif_pos (show (0 : Fin S2048x512.rank) ∈ dot_S2048x512_S512x512_S2048x512_1_0_0_1_n_n.lhsNonContracting by decide)]
  rfl
theorem dB_l1 (i : S2048x512.Idx) (q : dot_S2048x512_S512x512_S2048x512_1_0_0_1_n_n.contr.Idx) :
    (dot_S2048x512_S512x512_S2048x512_1_0_0_1_n_n.lhsIdx i q 1).val = (q ⟨0, by decide⟩).val :=
  dot_S2048x512_S512x512_S2048x512_1_0_0_1_n_n.lhsIdx_val_of_single rfl i q
theorem dB_r0 (i : S2048x512.Idx) (q : dot_S2048x512_S512x512_S2048x512_1_0_0_1_n_n.contr.Idx) :
    (dot_S2048x512_S512x512_S2048x512_1_0_0_1_n_n.rhsIdx i q 0).val = (q ⟨0, by decide⟩).val :=
  dot_S2048x512_S512x512_S2048x512_1_0_0_1_n_n.rhsIdx_val_of_single rfl i q
theorem dB_r1 (i : S2048x512.Idx) (q : dot_S2048x512_S512x512_S2048x512_1_0_0_1_n_n.contr.Idx) :
    (dot_S2048x512_S512x512_S2048x512_1_0_0_1_n_n.rhsIdx i q 1).val = (i 1).val := by
  unfold DotDims.rhsIdx
  rw [dif_neg (show ¬(1 : Fin S512x512.rank) ∈ dot_S2048x512_S512x512_S2048x512_1_0_0_1_n_n.rhsBatch by decide), dif_pos (show (1 : Fin S512x512.rank) ∈ dot_S2048x512_S512x512_S2048x512_1_0_0_1_n_n.rhsNonContracting by decide)]
  rfl

theorem dC_l0 (i : S2048x1.Idx) (q : dot_S2048x512_S512x1_S2048x1_1_0_0_1_n_n.contr.Idx) :
    (dot_S2048x512_S512x1_S2048x1_1_0_0_1_n_n.lhsIdx i q 0).val = (i 0).val := by
  unfold DotDims.lhsIdx
  rw [dif_neg (show ¬(0 : Fin S2048x512.rank) ∈ dot_S2048x512_S512x1_S2048x1_1_0_0_1_n_n.lhsBatch by decide), dif_pos (show (0 : Fin S2048x512.rank) ∈ dot_S2048x512_S512x1_S2048x1_1_0_0_1_n_n.lhsNonContracting by decide)]
  rfl
theorem dC_l1 (i : S2048x1.Idx) (q : dot_S2048x512_S512x1_S2048x1_1_0_0_1_n_n.contr.Idx) :
    (dot_S2048x512_S512x1_S2048x1_1_0_0_1_n_n.lhsIdx i q 1).val = (q ⟨0, by decide⟩).val :=
  dot_S2048x512_S512x1_S2048x1_1_0_0_1_n_n.lhsIdx_val_of_single rfl i q
theorem dC_r0 (i : S2048x1.Idx) (q : dot_S2048x512_S512x1_S2048x1_1_0_0_1_n_n.contr.Idx) :
    (dot_S2048x512_S512x1_S2048x1_1_0_0_1_n_n.rhsIdx i q 0).val = (q ⟨0, by decide⟩).val :=
  dot_S2048x512_S512x1_S2048x1_1_0_0_1_n_n.rhsIdx_val_of_single rfl i q
theorem dC_r1 (i : S2048x1.Idx) (q : dot_S2048x512_S512x1_S2048x1_1_0_0_1_n_n.contr.Idx) :
    (dot_S2048x512_S512x1_S2048x1_1_0_0_1_n_n.rhsIdx i q 1).val = (i 1).val := by
  unfold DotDims.rhsIdx
  rw [dif_neg (show ¬(1 : Fin S512x1.rank) ∈ dot_S2048x512_S512x1_S2048x1_1_0_0_1_n_n.rhsBatch by decide), dif_pos (show (1 : Fin S512x1.rank) ∈ dot_S2048x512_S512x1_S2048x1_1_0_0_1_n_n.rhsNonContracting by decide)]
  rfl

/-! ## The printed layers at an entry -/

/-- The first hidden layer of either expert, as the body computes it from the block of descriptors: entry `(p, j)`
    is hidden unit `j` of row `p`. -/
theorem first_layer (x0 : Vec Ideal S2048x128 .f32) (W1 : Vec Ideal S128x512 .f32) (b1 : Vec Ideal S512 .f32)
    (p : Fin 2048) (j : Fin 512) :
    k0_pay4 (F := Ideal) x0 W1 b1 (ix2 p j) = hidden1 W1 b1 (fun i => x0 (ix2 p i)) j :=
  tanh_layer_apply dot_S2048x128_S128x512_S2048x512_1_0_0_1_n_n rfl rfl dA_l0 dA_l1 dA_r0 dA_r1
    (k0_pay2 (F := Ideal) x0) (truncf .bf16 W1 bitsLt_bf16_f32) b1 shapeCasts_S512_S1x512 broadcasts_S1x512_S2048x512 p j

/-- The second hidden layer over a first layer given as an array: entry `(p, k)` is hidden unit `k` of row `p` of the
    first layer. -/
theorem second_layer (h : FVec Ideal S2048x512 .f32) (W2 : Vec Ideal S512x512 .f32) (b2 : Vec Ideal S512 .f32)
    (p : Fin 2048) (k : Fin 512) :
    tanh (addf (matmul dot_S2048x512_S512x512_S2048x512_1_0_0_1_n_n none (truncf .bf16 h bitsLt_bf16_f32) (truncf .bf16 W2 bitsLt_bf16_f32)
        (constant (F := Ideal) S2048x512 .f32 0x00000000#32))
      (broadcastTo S2048x512 (shapeCast S1x512 b2 shapeCasts_S512_S1x512) broadcasts_S1x512_S2048x512)) (ix2 p k)
      = hidden2 W2 b2 (fun j => h (ix2 p j)) k :=
  tanh_layer_apply dot_S2048x512_S512x512_S2048x512_1_0_0_1_n_n rfl rfl dB_l0 dB_l1 dB_r0 dB_r1
    (truncf .bf16 h bitsLt_bf16_f32) (truncf .bf16 W2 bitsLt_bf16_f32) b2 shapeCasts_S512_S1x512 broadcasts_S1x512_S2048x512 p k

/-- The read-out over a second layer given as an array: entry `p` is the read-out of row `p`. -/
theorem read_out (h : FVec Ideal S2048x512 .f32) (W3 : Vec Ideal S512x1 .f32) (b3 off : Vec Ideal S1 .f32) (p : Fin 2048) :
    shapeCast S2048 (addf (addf (matmul dot_S2048x512_S512x1_S2048x1_1_0_0_1_n_n none (truncf .bf16 h bitsLt_bf16_f32) (truncf .bf16 W3 bitsLt_bf16_f32)
        (constant (F := Ideal) S2048x1 .f32 0x00000000#32))
      (broadcastTo S2048x1 (shapeCast S1x1 b3 shapeCasts_S1_S1x1) broadcasts_S1x1_S2048x1))
      (broadcastTo S2048x1 (shapeCast S1x1 off shapeCasts_S1_S1x1) broadcasts_S1x1_S2048x1)) shapeCasts_S2048x1_S2048 (ix1 p)
      = readout W3 b3 off (fun k => h (ix2 p k)) :=
  readout_apply dot_S2048x512_S512x1_S2048x1_1_0_0_1_n_n rfl rfl dC_l0 dC_l1 dC_r0 dC_r1
    (truncf .bf16 h bitsLt_bf16_f32) (truncf .bf16 W3 bitsLt_bf16_f32) b3 off shapeCasts_S1_S1x1 broadcasts_S1x1_S2048x1 shapeCasts_S2048x1_S2048 p

/-! ## The body from the first layer up -/

/-- Layers two and three as the body prints them, of a first layer given as an array. -/
def upper (h1 : FVec Ideal S2048x512 .f32) (W2 : Vec Ideal S512x512 .f32) (b2 : Vec Ideal S512 .f32)
    (W3 : Vec Ideal S512x1 .f32) (b3 off : Vec Ideal S1 .f32) : FVec Ideal S2048 .f32 :=
  shapeCast S2048 (addf (addf (matmul dot_S2048x512_S512x1_S2048x1_1_0_0_1_n_n none
        (truncf .bf16 (tanh (addf (matmul dot_S2048x512_S512x512_S2048x512_1_0_0_1_n_n none (truncf .bf16 h1 bitsLt_bf16_f32) (truncf .bf16 W2 bitsLt_bf16_f32)
            (constant (F := Ideal) S2048x512 .f32 0x00000000#32))
          (broadcastTo S2048x512 (shapeCast S1x512 b2 shapeCasts_S512_S1x512) broadcasts_S1x512_S2048x512))) bitsLt_bf16_f32)
        (truncf .bf16 W3 bitsLt_bf16_f32) (constant (F := Ideal) S2048x1 .f32 0x00000000#32))
      (broadcastTo S2048x1 (shapeCast S1x1 b3 shapeCasts_S1_S1x1) broadcasts_S1x1_S2048x1))
      (broadcastTo S2048x1 (shapeCast S1x1 off shapeCasts_S1_S1x1) broadcasts_S1x1_S2048x1)) shapeCasts_S2048x1_S2048

/-- Entry `p` of it: the read-out of the second layer of row `p` of the first layer. -/
theorem upper_apply (h1 : FVec Ideal S2048x512 .f32) (W2 : Vec Ideal S512x512 .f32) (b2 : Vec Ideal S512 .f32)
    (W3 : Vec Ideal S512x1 .f32) (b3 off : Vec Ideal S1 .f32) (p : Fin 2048) :
    upper h1 W2 b2 W3 b3 off (ix1 p) = readout W3 b3 off (hidden2 W2 b2 (fun j => h1 (ix2 p j))) := by
  unfold upper
  rw [read_out]
  exact congrArg (readout W3 b3 off) (funext fun k => second_layer h1 W2 b2 p k)

/-- The first expert's energies as the body computes them: layers two and three over the first layer. -/
theorem first_expert_eq (x0 : Vec Ideal S2048x128 .f32) (W1 : Vec Ideal S128x512 .f32) (b1 : Vec Ideal S512 .f32)
    (W2 : Vec Ideal S512x512 .f32) (b2 : Vec Ideal S512 .f32) (W3 : Vec Ideal S512x1 .f32) (b3 off : Vec Ideal S1 .f32) :
    k0_pay3 (F := Ideal) x0 W1 b1 W2 b2 W3 b3 off = upper (k0_pay4 (F := Ideal) x0 W1 b1) W2 b2 W3 b3 off := rfl

/-- The stored vector: the first expert's energies where the type is `0`, else the second expert's, computed from
    its first layer. -/
theorem stored_eq (eA : FVec Ideal S2048 .f32) (h1B : FVec Ideal S2048x512 .f32) (W2 : Vec Ideal S512x512 .f32)
    (b2 : Vec Ideal S512 .f32) (W3 : Vec Ideal S512x1 .f32) (b3 off : Vec Ideal S1 .f32) (ty : Vec Ideal S2048 .i32) :
    k0_pay1 (F := Ideal) eA h1B W2 b2 W3 b3 off ty
      = select (cmpi .eq ty (broadcast S2048 0#32)) eA (upper h1B W2 b2 W3 b3 off) := rfl

/-- An expert's energy of row `p` of the block, from the printed layers. -/
theorem expert_apply (x0 : Vec Ideal S2048x128 .f32) (W1 : Vec Ideal S128x512 .f32) (b1 : Vec Ideal S512 .f32)
    (W2 : Vec Ideal S512x512 .f32) (b2 : Vec Ideal S512 .f32) (W3 : Vec Ideal S512x1 .f32) (b3 off : Vec Ideal S1 .f32)
    (p : Fin 2048) :
    upper (k0_pay4 (F := Ideal) x0 W1 b1) W2 b2 W3 b3 off (ix1 p)
      = net ⟨W1, b1, W2, b2, W3, b3, off⟩ (fun i => x0 (ix2 p i)) := by
  rw [upper_apply]
  exact congrArg (fun h => readout W3 b3 off (hidden2 W2 b2 h)) (funext fun j => first_layer x0 W1 b1 p j)

theorem hz1 : (![0] : Fin 1 → Nat) = fun _ => 0 := funext fun a => by fin_cases a <;> rfl
theorem hz2 : (![0, 0] : Fin 2 → Nat) = fun _ => 0 := funext fun a => by fin_cases a <;> rfl

/-- WHAT THE BODY LEAVES in the output's staging buffer, entry by entry: the routed energies of the block. -/
theorem stored_apply (x0 : Vec Ideal S2048x128 .f32) (x1 : Vec Ideal S2048 .i32) (x2 : Vec Ideal S128x512 .f32)
    (x3 : Vec Ideal S512 .f32) (x4 : Vec Ideal S512x512 .f32) (x5 : Vec Ideal S512 .f32) (x6 : Vec Ideal S512x1 .f32)
    (x7 : Vec Ideal S1 .f32) (x8 : Vec Ideal S1 .f32) (x9 : Vec Ideal S128x512 .f32) (x10 : Vec Ideal S512 .f32)
    (x11 : Vec Ideal S512x512 .f32) (x12 : Vec Ideal S512 .f32) (x13 : Vec Ideal S512x1 .f32) (x14 : Vec Ideal S1 .f32)
    (x15 : Vec Ideal S1 .f32) (p : Fin 2048) :
    out0_16 (F := Ideal) x0 x1 x2 x3 x4 x5 x6 x7 x8 x9 x10 x11 x12 x13 x14 x15 (ix1 p)
      = blockEnergy x0 x1 ⟨x2, x3, x4, x5, x6, x7, x8⟩ ⟨x9, x10, x11, x12, x13, x14, x15⟩ (ix1 p) := by
  unfold out0_16
  rw [View.canon_unit_zero hz1]
  simp only [View.ld_unit_zero (S := S2048x128) hz2, View.ld_unit_zero (S := S128x512) hz2,
    View.ld_unit_zero (S := S512x512) hz2, View.ld_unit_zero (S := S512x1) hz2, View.ld_unit_zero (S := S512) hz1,
    View.ld_unit_zero (S := S1) hz1, View.ld_unit_zero (S := S2048) hz1]
  rw [stored_eq, first_expert_eq]
  show Scalar.select (IntOp.cmpi .eq (x1 (ix1 p)) 0#32)
      (upper (k0_pay4 (F := Ideal) x0 x2 x3) x4 x5 x6 x7 x8 (ix1 p))
      (upper (k0_pay4 (F := Ideal) x0 x9 x10) x11 x12 x13 x14 x15 (ix1 p)) = _
  rw [expert_apply, expert_apply]
  rfl

/-- The same as an equality of arrays: the body's stored vector IS the block's routed energies. -/
theorem stored_eq_block (x0 : Vec Ideal S2048x128 .f32) (x1 : Vec Ideal S2048 .i32) (x2 : Vec Ideal S128x512 .f32)
    (x3 : Vec Ideal S512 .f32) (x4 : Vec Ideal S512x512 .f32) (x5 : Vec Ideal S512 .f32) (x6 : Vec Ideal S512x1 .f32)
    (x7 : Vec Ideal S1 .f32) (x8 : Vec Ideal S1 .f32) (x9 : Vec Ideal S128x512 .f32) (x10 : Vec Ideal S512 .f32)
    (x11 : Vec Ideal S512x512 .f32) (x12 : Vec Ideal S512 .f32) (x13 : Vec Ideal S512x1 .f32) (x14 : Vec Ideal S1 .f32)
    (x15 : Vec Ideal S1 .f32) :
    out0_16 (F := Ideal) x0 x1 x2 x3 x4 x5 x6 x7 x8 x9 x10 x11 x12 x13 x14 x15
      = blockEnergy x0 x1 ⟨x2, x3, x4, x5, x6, x7, x8⟩ ⟨x9, x10, x11, x12, x13, x14, x15⟩ := by
  funext q
  obtain ⟨p, rfl⟩ : ∃ p : Fin 2048, q = ix1 p := ⟨q 0, eq_ix1 q⟩
  exact stored_apply x0 x1 x2 x3 x4 x5 x6 x7 x8 x9 x10 x11 x12 x13 x14 x15 p

end Cert.KernelIdeal.Block

end
-- ==== Proof.KernelArray.lean ====
/-
  From what each grid point writes back to the whole array of atom energies.

  The grid has 64 points; point `t` stages rows `2048 t … 2048 t + 2047` of the descriptors and of the types, every
  parameter array whole (its one block, at block index zero, is the array), and writes back entries
  `2048 t … 2048 t + 2047` of the energies. Its stored vector is the routed energies of its block of rows, so what it
  writes back is block `t` of ONE whole-array function of the arguments, `energies`; the 64 blocks tile the array
  (atom `r` is in block `r / 2048`), hence the array ends holding `energies`.
-/
import proofs.«144105_j3659312136806_1_alg».proof.Proof.KernelBlock
import Idealize.ShloMosaic.Lib.Pipeline.Value
import Idealize.ShloMosaic.Lib.Tactic

set_option maxRecDepth 16384

noncomputable section

namespace Cert.KernelIdeal.Energies

open Cert.KernelIdeal Cert.KernelIdeal.Gen Cert.KernelIdeal.Block Idealize.ShloMosaic Idealize.ShloMosaic.TcCoe
open Idealize.ShloMosaic.ValueIdx Idealize.SL.Sem Cert.AtomNet
open Idealize.ShloMosaic.Pipeline (Dat)

variable (m : (ℓ : Loc nD τ sig) → Buf (Elt Ideal) ℓ) (ρ : Dev nD → PrngReg)

/-! ## The arguments as the region finds them, and the function the array ends at -/

/-- The first expert's parameter arrays. -/
def expertA (c : Dev nD) : Expert :=
  ⟨V m c main_arg3, V m c main_arg4, V m c main_arg5, V m c main_arg6, V m c main_arg7, V m c main_arg8, V m c main_arg9⟩
/-- The second expert's. -/
def expertB (c : Dev nD) : Expert :=
  ⟨V m c main_arg10, V m c main_arg11, V m c main_arg12, V m c main_arg13, V m c main_arg14, V m c main_arg15, V m c main_arg16⟩
/-- Every atom's routed energy, of the argument arrays. -/
def energies (c : Dev nD) : S131072.Idx → EReal :=
  atomEnergy (V m c main_arg0) (V m c main_arg1) (expertA m c) (expertB m c)

/-! ## The printed index maps, decided over the 64 grid points -/

/-- The descriptors', the types' and the energies' blocks move with the grid point along axis 0. -/
theorem idx_moving : ∀ t : Fin cfg0.N, win0_0.index t (0 : Fin 2) = t.val ∧ win0_0.index t (1 : Fin 2) = 0
    ∧ win0_1.index t (0 : Fin 1) = t.val ∧ win0_16.index t (0 : Fin 1) = t.val :=
  (by decide +kernel : ∀ t : Fin grid0.N, _)

/-! ## A parameter window's one block is its array -/

theorem idx_fixed2 : ∀ t : Fin cfg0.N, win0_2.index t (0 : Fin 2) = 0 ∧ win0_2.index t (1 : Fin 2) = 0 :=
  (by decide +kernel : ∀ t : Fin grid0.N, _)
theorem whole2 (c : Dev nD) (t : Fin cfg0.N) :
    (iblk m c 2 t : Vec Ideal S128x512 .f32) = (V m c main_arg3 : Vec Ideal S128x512 .f32) := by
  funext y
  unfold iblk
  rw [View.read_apply]
  show V m c main_arg3 _ = V m c main_arg3 y
  refine congrArg _ (funext fun a => Fin.ext ?_)
  match a with
    | ⟨0, _⟩ => show win0_2.index t (0 : Fin 2) * 128 + 1 * (y 0).val = (y 0).val; rw [(idx_fixed2 t).1]; omega
    | ⟨1, _⟩ => show win0_2.index t (1 : Fin 2) * 512 + 1 * (y 1).val = (y 1).val; rw [(idx_fixed2 t).2]; omega

theorem idx_fixed3 : ∀ t : Fin cfg0.N, win0_3.index t (0 : Fin 1) = 0 :=
  (by decide +kernel : ∀ t : Fin grid0.N, _)
theorem whole3 (c : Dev nD) (t : Fin cfg0.N) :
    (iblk m c 3 t : Vec Ideal S512 .f32) = (V m c main_arg4 : Vec Ideal S512 .f32) := by
  funext y
  unfold iblk
  rw [View.read_apply]
  show V m c main_arg4 _ = V m c main_arg4 y
  refine congrArg _ (funext fun a => Fin.ext ?_)
  match a with
    | ⟨0, _⟩ => show win0_3.index t (0 : Fin 1) * 512 + 1 * (y 0).val = (y 0).val; rw [idx_fixed3 t]; omega

theorem idx_fixed4 : ∀ t : Fin cfg0.N, win0_4.index t (0 : Fin 2) = 0 ∧ win0_4.index t (1 : Fin 2) = 0 :=
  (by decide +kernel : ∀ t : Fin grid0.N, _)
theorem whole4 (c : Dev nD) (t : Fin cfg0.N) :
    (iblk m c 4 t : Vec Ideal S512x512 .f32) = (V m c main_arg5 : Vec Ideal S512x512 .f32) := by
  funext y
  unfold iblk
  rw [View.read_apply]
  show V m c main_arg5 _ = V m c main_arg5 y
  refine congrArg _ (funext fun a => Fin.ext ?_)
  match a with
    | ⟨0, _⟩ => show win0_4.index t (0 : Fin 2) * 512 + 1 * (y 0).val = (y 0).val; rw [(idx_fixed4 t).1]; omega
    | ⟨1, _⟩ => show win0_4.index t (1 : Fin 2) * 512 + 1 * (y 1).val = (y 1).val; rw [(idx_fixed4 t).2]; omega

theorem idx_fixed5 : ∀ t : Fin cfg0.N, win0_5.index t (0 : Fin 1) = 0 :=
  (by decide +kernel : ∀ t : Fin grid0.N, _)
theorem whole5 (c : Dev nD) (t : Fin cfg0.N) :
    (iblk m c 5 t : Vec Ideal S512 .f32) = (V m c main_arg6 : Vec Ideal S512 .f32) := by
  funext y
  unfold iblk
  rw [View.read_apply]
  show V m c main_arg6 _ = V m c main_arg6 y
  refine congrArg _ (funext fun a => Fin.ext ?_)
  match a with
    | ⟨0, _⟩ => show win0_5.index t (0 : Fin 1) * 512 + 1 * (y 0).val = (y 0).val; rw [idx_fixed5 t]; omega

theorem idx_fixed6 : ∀ t : Fin cfg0.N, win0_6.index t (0 : Fin 2) = 0 ∧ win0_6.index t (1 : Fin 2) = 0 :=
  (by decide +kernel : ∀ t : Fin grid0.N, _)
theorem whole6 (c : Dev nD) (t : Fin cfg0.N) :
    (iblk m c 6 t : Vec Ideal S512x1 .f32) = (V m c main_arg7 : Vec Ideal S512x1 .f32) := by
  funext y
  unfold iblk
  rw [View.read_apply]
  show V m c main_arg7 _ = V m c main_arg7 y
  refine congrArg _ (funext fun a => Fin.ext ?_)
  match a with
    | ⟨0, _⟩ => show win0_6.index t (0 : Fin 2) * 512 + 1 * (y 0).val = (y 0).val; rw [(idx_fixed6 t).1]; omega
    | ⟨1, _⟩ => show win0_6.index t (1 : Fin 2) * 1 + 1 * (y 1).val = (y 1).val; rw [(idx_fixed6 t).2]; omega

theorem idx_fixed7 : ∀ t : Fin cfg0.N, win0_7.index t (0 : Fin 1) = 0 :=
  (by decide +kernel : ∀ t : Fin grid0.N, _)
theorem whole7 (c : Dev nD) (t : Fin cfg0.N) :
    (iblk m c 7 t : Vec Ideal S1 .f32) = (V m c main_arg8 : Vec Ideal S1 .f32) := by
  funext y
  unfold iblk
  rw [View.read_apply]
  show V m c main_arg8 _ = V m c main_arg8 y
  refine congrArg _ (funext fun a => Fin.ext ?_)
  match a with
    | ⟨0, _⟩ => show win0_7.index t (0 : Fin 1) * 1 + 1 * (y 0).val = (y 0).val; rw [idx_fixed7 t]; omega

theorem idx_fixed8 : ∀ t : Fin cfg0.N, win0_8.index t (0 : Fin 1) = 0 :=
  (by decide +kernel : ∀ t : Fin grid0.N, _)
theorem whole8 (c : Dev nD) (t : Fin cfg0.N) :
    (iblk m c 8 t : Vec Ideal S1 .f32) = (V m c main_arg9 : Vec Ideal S1 .f32) := by
  funext y
  unfold iblk
  rw [View.read_apply]
  show V m c main_arg9 _ = V m c main_arg9 y
  refine congrArg _ (funext fun a => Fin.ext ?_)
  match a with
    | ⟨0, _⟩ => show win0_8.index t (0 : Fin 1) * 1 + 1 * (y 0).val = (y 0).val; rw [idx_fixed8 t]; omega

theorem idx_fixed9 : ∀ t : Fin cfg0.N, win0_9.index t (0 : Fin 2) = 0 ∧ win0_9.index t (1 : Fin 2) = 0 :=
  (by decide +kernel : ∀ t : Fin grid0.N, _)
theorem whole9 (c : Dev nD) (t : Fin cfg0.N) :
    (iblk m c 9 t : Vec Ideal S128x512 .f32) = (V m c main_arg10 : Vec Ideal S128x512 .f32) := by
  funext y
  unfold iblk
  rw [View.read_apply]
  show V m c main_arg10 _ = V m c main_arg10 y
  refine congrArg _ (funext fun a => Fin.ext ?_)
  match a with
    | ⟨0, _⟩ => show win0_9.index t (0 : Fin 2) * 128 + 1 * (y 0).val = (y 0).val; rw [(idx_fixed9 t).1]; omega
    | ⟨1, _⟩ => show win0_9.index t (1 : Fin 2) * 512 + 1 * (y 1).val = (y 1).val; rw [(idx_fixed9 t).2]; omega

theorem idx_fixed10 : ∀ t : Fin cfg0.N, win0_10.index t (0 : Fin 1) = 0 :=
  (by decide +kernel : ∀ t : Fin grid0.N, _)
theorem whole10 (c : Dev nD) (t : Fin cfg0.N) :
    (iblk m c 10 t : Vec Ideal S512 .f32) = (V m c main_arg11 : Vec Ideal S512 .f32) := by
  funext y
  unfold iblk
  rw [View.read_apply]
  show V m c main_arg11 _ = V m c main_arg11 y
  refine congrArg _ (funext fun a => Fin.ext ?_)
  match a with
    | ⟨0, _⟩ => show win0_10.index t (0 : Fin 1) * 512 + 1 * (y 0).val = (y 0).val; rw [idx_fixed10 t]; omega

theorem idx_fixed11 : ∀ t : Fin cfg0.N, win0_11.index t (0 : Fin 2) = 0 ∧ win0_11.index t (1 : Fin 2) = 0 :=
  (by decide +kernel : ∀ t : Fin grid0.N, _)
theorem whole11 (c : Dev nD) (t : Fin cfg0.N) :
    (iblk m c 11 t : Vec Ideal S512x512 .f32) = (V m c main_arg12 : Vec Ideal S512x512 .f32) := by
  funext y
  unfold iblk
  rw [View.read_apply]
  show V m c main_arg12 _ = V m c main_arg12 y
  refine congrArg _ (funext fun a => Fin.ext ?_)
  match a with
    | ⟨0, _⟩ => show win0_11.index t (0 : Fin 2) * 512 + 1 * (y 0).val = (y 0).val; rw [(idx_fixed11 t).1]; omega
    | ⟨1, _⟩ => show win0_11.index t (1 : Fin 2) * 512 + 1 * (y 1).val = (y 1).val; rw [(idx_fixed11 t).2]; omega

theorem idx_fixed12 : ∀ t : Fin cfg0.N, win0_12.index t (0 : Fin 1) = 0 :=
  (by decide +kernel : ∀ t : Fin grid0.N, _)
theorem whole12 (c : Dev nD) (t : Fin cfg0.N) :
    (iblk m c 12 t : Vec Ideal S512 .f32) = (V m c main_arg13 : Vec Ideal S512 .f32) := by
  funext y
  unfold iblk
  rw [View.read_apply]
  show V m c main_arg13 _ = V m c main_arg13 y
  refine congrArg _ (funext fun a => Fin.ext ?_)
  match a with
    | ⟨0, _⟩ => show win0_12.index t (0 : Fin 1) * 512 + 1 * (y 0).val = (y 0).val; rw [idx_fixed12 t]; omega

theorem idx_fixed13 : ∀ t : Fin cfg0.N, win0_13.index t (0 : Fin 2) = 0 ∧ win0_13.index t (1 : Fin 2) = 0 :=
  (by decide +kernel : ∀ t : Fin grid0.N, _)
theorem whole13 (c : Dev nD) (t : Fin cfg0.N) :
    (iblk m c 13 t : Vec Ideal S512x1 .f32) = (V m c main_arg14 : Vec Ideal S512x1 .f32) := by
  funext y
  unfold iblk
  rw [View.read_apply]
  show V m c main_arg14 _ = V m c main_arg14 y
  refine congrArg _ (funext fun a => Fin.ext ?_)
  match a with
    | ⟨0, _⟩ => show win0_13.index t (0 : Fin 2) * 512 + 1 * (y 0).val = (y 0).val; rw [(idx_fixed13 t).1]; omega
    | ⟨1, _⟩ => show win0_13.index t (1 : Fin 2) * 1 + 1 * (y 1).val = (y 1).val; rw [(idx_fixed13 t).2]; omega

theorem idx_fixed14 : ∀ t : Fin cfg0.N, win0_14.index t (0 : Fin 1) = 0 :=
  (by decide +kernel : ∀ t : Fin grid0.N, _)
theorem whole14 (c : Dev nD) (t : Fin cfg0.N) :
    (iblk m c 14 t : Vec Ideal S1 .f32) = (V m c main_arg15 : Vec Ideal S1 .f32) := by
  funext y
  unfold iblk
  rw [View.read_apply]
  show V m c main_arg15 _ = V m c main_arg15 y
  refine congrArg _ (funext fun a => Fin.ext ?_)
  match a with
    | ⟨0, _⟩ => show win0_14.index t (0 : Fin 1) * 1 + 1 * (y 0).val = (y 0).val; rw [idx_fixed14 t]; omega

theorem idx_fixed15 : ∀ t : Fin cfg0.N, win0_15.index t (0 : Fin 1) = 0 :=
  (by decide +kernel : ∀ t : Fin grid0.N, _)
theorem whole15 (c : Dev nD) (t : Fin cfg0.N) :
    (iblk m c 15 t : Vec Ideal S1 .f32) = (V m c main_arg16 : Vec Ideal S1 .f32) := by
  funext y
  unfold iblk
  rw [View.read_apply]
  show V m c main_arg16 _ = V m c main_arg16 y
  refine congrArg _ (funext fun a => Fin.ext ?_)
  match a with
    | ⟨0, _⟩ => show win0_15.index t (0 : Fin 1) * 1 + 1 * (y 0).val = (y 0).val; rw [idx_fixed15 t]; omega

/-! ## The moving windows' blocks as rows of their arrays -/

/-- Entry `q` of the types' block at point `t` is the type of atom `2048 t + q`. -/
theorem types_at (c : Dev nD) (t : Fin cfg0.N) (q : S2048.Idx) (i : S131072.Idx) (hi : (i 0).val = t.val * 2048 + (q 0).val) :
    (iblk m c 1 t : Vec Ideal S2048 .i32) q = (V m c main_arg1 : Vec Ideal S131072 .i32) i := by
  unfold iblk
  rw [View.read_apply]
  show V m c main_arg1 _ = V m c main_arg1 i
  refine congrArg _ (funext fun a => Fin.ext ?_)
  match a with
  | ⟨0, _⟩ => show win0_1.index t (0 : Fin 1) * 2048 + 1 * (q 0).val = (i 0).val; rw [(idx_moving t).2.2.1, hi]; omega

/-- Row `q` of the descriptors' block at point `t` is the row of atom `2048 t + q`. -/
theorem rows_at (c : Dev nD) (t : Fin cfg0.N) (q : Fin 2048) (r : Fin 131072) (hr : r.val = t.val * 2048 + q.val) (k : Fin 128) :
    (iblk m c 0 t : Vec Ideal S2048x128 .f32) (ix2 q k) = (V m c main_arg0 : Vec Ideal S131072x128 .f32) (ix2 r k) := by
  unfold iblk
  rw [View.read_apply]
  show V m c main_arg0 _ = V m c main_arg0 (ix2 r k)
  refine congrArg _ (funext fun a => Fin.ext ?_)
  match a with
  | ⟨0, _⟩ => show win0_0.index t (0 : Fin 2) * 2048 + 1 * q.val = r.val; rw [(idx_moving t).1, hr]; omega
  | ⟨1, _⟩ => show win0_0.index t (1 : Fin 2) * 128 + 1 * k.val = k.val; rw [(idx_moving t).2.1]; omega

/-! ## What a point computes is its block of `energies` -/

/-- The routed energies of point `t`'s blocks, at entry `q`, are `energies` at atom `2048 t + q`. -/
theorem block_eq (c : Dev nD) (t : Fin cfg0.N) (q : S2048.Idx) (i : S131072.Idx) (hi : (i 0).val = t.val * 2048 + (q 0).val) :
    blockEnergy (iblk m c 0 t) (iblk m c 1 t)
        ⟨iblk m c 2 t, iblk m c 3 t, iblk m c 4 t, iblk m c 5 t, iblk m c 6 t, iblk m c 7 t, iblk m c 8 t⟩
        ⟨iblk m c 9 t, iblk m c 10 t, iblk m c 11 t, iblk m c 12 t, iblk m c 13 t, iblk m c 14 t, iblk m c 15 t⟩ q
      = energies m c i := by
  unfold blockEnergy energies atomEnergy expertA expertB
  rw [whole2 m c t, whole3 m c t, whole4 m c t, whole5 m c t, whole6 m c t, whole7 m c t, whole8 m c t,
    whole9 m c t, whole10 m c t, whole11 m c t, whole12 m c t, whole13 m c t, whole14 m c t, whole15 m c t,
    types_at m c t q i hi]
  simp only [rows_at m c t (q 0) (i 0) hi]

/-- WHAT POINT `t` WRITES BACK is block `t` of `energies`. -/
theorem flushed_eq (c : Dev nD) (t : Fin cfg0.N) :
    (dats m 0 c).flushed 16 t = ((cfg0.win 16).blk t).view.read (Elt Ideal) (energies m c) := by
  show (cfg0.win 16).cut (grid0.coords t) ((dats m 0 c).after 16 t) = _
  rw [after0_16]
  funext y
  rw [View.read_apply]
  refine (congrFun (stored_eq_block (iblk m c 0 t) (iblk m c 1 t) (iblk m c 2 t) (iblk m c 3 t) (iblk m c 4 t) (iblk m c 5 t)
      (iblk m c 6 t) (iblk m c 7 t) (iblk m c 8 t) (iblk m c 9 t) (iblk m c 10 t) (iblk m c 11 t) (iblk m c 12 t)
      (iblk m c 13 t) (iblk m c 14 t) (iblk m c 15 t)) ((cfg0.win 16).xinj (grid0.coords t) y)).trans ?_
  refine block_eq m c t ((cfg0.win 16).xinj (grid0.coords t) y) (((cfg0.win 16).blk t).view.emb y) ?_
  show win0_16.index t (0 : Fin 1) * 2048 + 1 * (y 0).val = t.val * 2048 + (y 0).val
  rw [(idx_moving t).2.2.2]; omega

/-! ## The blocks tile the array -/

/-- An atom is in point `t`'s block iff its index is in the block's range. -/
theorem mem_blk (t : Fin cfg0.N) (i : S131072.Idx) :
    i ∈ ((cfg0.win 16).blk t).view.set ↔ ∀ a : Fin 1, win0_16.index t a * S2048.size a ≤ (i a).val ∧ (i a).val < win0_16.index t a * S2048.size a + S2048.size a := by
  show i ∈ ((View.whole main_v0).slice (win0_16.rect t)).set ↔ _
  rw [View.set_slice_whole, Rect.mem_set_unit]
  exact Iff.rfl

/-- Atom `r` is in the block of point `r / 2048`, and every point writes back. -/
theorem covered (i : S131072.Idx) : ∃ t : Fin cfg0.N, (cfg0.win 16).flush t = true ∧ i ∈ ((cfg0.win 16).blk t).view.set := by
  have hi : (i 0).val < 131072 := (i 0).isLt
  have hN : cfg0.N = 64 := N_0
  refine ⟨⟨(i 0).val / 2048, by rw [hN]; omega⟩, flush0_16 _, ?_⟩
  rw [mem_blk]
  intro a
  match a with
  | ⟨0, _⟩ =>
    show win0_16.index _ (0 : Fin 1) * 2048 ≤ (i 0).val ∧ (i 0).val < win0_16.index _ (0 : Fin 1) * 2048 + 2048
    rw [(idx_moving _).2.2.2]
    show (i 0).val / 2048 * 2048 ≤ (i 0).val ∧ (i 0).val < (i 0).val / 2048 * 2048 + 2048
    omega

/-- THE ARRAY after the region: every atom's routed energy. -/
theorem final (c : Dev nD) : (dats m 0 c).arrAt 16 cfg0.N = energies m c :=
  (dats m 0 c).arrAt_eq_of_cover 16 (energies m c) (fun t _ => flushed_eq m c t) (covered)

end Cert.KernelIdeal.Energies

end
-- ==== Proof.KernelRun.lean ====
/-
  The kernel program's run, read: the per-molecule mean of the routed energies.

  After the region @main sums the atom energies into 1024 molecules by a scatter-add along the molecule ids, counts
  each molecule's atoms the same way (a scatter-add of ones), and divides each sum by its count, a count below one
  replaced by one; the quotient vector is placed as the one column of the `[1024, 1]` result. `perMolecule` is that
  tail as one function of the energies and the ids. The region leaves the energies' array at `energies` of the
  arguments (the blocks tile it), the tail reads that array and the unchanged ids, so the result is `perMolecule` of
  them; the argument arrays end as launched.
-/
import proofs.«144105_j3659312136806_1_alg».proof.Proof.KernelArray
import Idealize.ShloMosaic.Lib.StableHlo.Run
import Idealize.ShloMosaic.Lib.Pipeline.Value

set_option maxRecDepth 16384

noncomputable section

namespace Cert.KernelIdeal.Result

open Cert.KernelIdeal Cert.KernelIdeal.Gen Cert.KernelIdeal.Energies Idealize.ShloMosaic Idealize.ShloMosaic.TcCoe
open Idealize.ShloMosaic.StableHlo Idealize.SL.Sem
open Idealize.ShloMosaic.Pipeline (Dat)

variable (m : (ℓ : Loc nD τ sig) → Buf (Elt Ideal) ℓ) (ρ : Dev nD → PrngReg)

/-- The host lines after the region, as one function of the atom energies and the molecule ids: the scatter-added
    energies divided by the scatter-added ones (at least one), as a column. -/
def perMolecule (e : Vec Ideal S131072 .f32) (mol : Vec Ideal S131072 .i32) : Vec Ideal S1024x1 .f32 :=
  broadcastInDim S1024x1 ![0] bcast_S1024_S1024x1_0
    (Host.divf (F := Ideal)
      (Host.scatterAdd (F := Ideal) scatter_S1024_S131072x1_S131072_n_0_0_1
        (broadcastInDim S1024 ![] bcast_S_S1024 (constant (F := Ideal) S_ .f32 0x00000000#32))
        (broadcastInDim S131072x1 ![0] bcast_S131072_S131072x1_0 mol) e)
      (maximumf (F := Ideal)
        (Host.scatterAdd (F := Ideal) scatter_S1024_S131072x1_S131072_n_0_0_1
          (broadcastInDim S1024 ![] bcast_S_S1024 (constant (F := Ideal) S_ .f32 0x00000000#32))
          (broadcastInDim S131072x1 ![0] bcast_S131072_S131072x1_0 mol)
          (broadcastInDim S131072 ![] bcast_S_S131072 (constant (F := Ideal) S_ .f32 0x3F800000#32)))
        (broadcastInDim S1024 ![] bcast_S_S1024 (constant (F := Ideal) S_ .f32 0x3F800000#32))))

/-- What the lines after the region leave in the result buffer: `perMolecule` of the region's energies and of the
    ids as launched. -/
theorem tail_eq (c : Dev nD) :
    Pipeline.afterTail₀ cfgs (dats m) 0 (V0 m) [hostOps1] c main_v11
      = perMolecule (energies m c) (m ((c.tc : Thread nD τ).loc main_arg2)) := by
  unfold Pipeline.afterTail₀
  show StableHlo.after hostOps1 _ (Proc.devRef .tc main_v11) = _
  after_results
  have hE : Pipeline.withArrays (cfgs 0).spec c (V0 m c) (fun w => (dats m 0 c).arrAt w (cfgs 0).N) (Proc.devRef .tc main_v0)
      = energies m c :=
    (Pipeline.withArrays_arr spec0 launch0.win.arr_inj c _ _ 16).trans (final m c)
  have hM : Pipeline.withArrays (cfgs 0).spec c (V0 m c) (fun w => (dats m 0 c).arrAt w (cfgs 0).N) (Proc.devRef .tc main_arg2)
      = m ((c.tc : Thread nD τ).loc main_arg2) :=
    (Pipeline.withArrays_of_ne _ c (V0 m c) _ main_arg2 (by exact (by decide : ∀ w, Pipeline.arrRef spec0 w ≠ main_arg2))).trans
      (V_main_arg2 m c)
  exact congrArg₂ perMolecule hE hM

set_option maxHeartbeats 1020000 in
/-- THE KERNEL PROGRAM'S RUN: every weakly fair execution terminates with the result buffer at the per-molecule mean of
    the routed energies of the arguments, and the argument arrays as launched. -/
theorem run : θ_run defs (onTc (τ := τ) (main (F := Ideal))) ⟨m, fun _ => 0, ρ⟩ fun r => ∀ c : Dev nD,
      r.2.mem ((c.tc : Thread nD τ).loc main_v11) = perMolecule (energies m c) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun _ h c => ⟨((h c).2 main_v11 (Pipeline.mem_restRefs_of main_v11 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 2).trans (((dats m 0 c).arrAt_in 2 rfl _).trans ((A_eq m c 2).trans (V_main_arg3 m c))),
      ((h c).1 3).trans (((dats m 0 c).arrAt_in 3 rfl _).trans ((A_eq m c 3).trans (V_main_arg4 m c))),
      ((h c).1 4).trans (((dats m 0 c).arrAt_in 4 rfl _).trans ((A_eq m c 4).trans (V_main_arg5 m c))),
      ((h c).1 5).trans (((dats m 0 c).arrAt_in 5 rfl _).trans ((A_eq m c 5).trans (V_main_arg6 m c))),
      ((h c).1 6).trans (((dats m 0 c).arrAt_in 6 rfl _).trans ((A_eq m c 6).trans (V_main_arg7 m c))),
      ((h c).1 7).trans (((dats m 0 c).arrAt_in 7 rfl _).trans ((A_eq m c 7).trans (V_main_arg8 m c))),
      ((h c).1 8).trans (((dats m 0 c).arrAt_in 8 rfl _).trans ((A_eq m c 8).trans (V_main_arg9 m c))),
      ((h c).1 9).trans (((dats m 0 c).arrAt_in 9 rfl _).trans ((A_eq m c 9).trans (V_main_arg10 m c))),
      ((h c).1 10).trans (((dats m 0 c).arrAt_in 10 rfl _).trans ((A_eq m c 10).trans (V_main_arg11 m c))),
      ((h c).1 11).trans (((dats m 0 c).arrAt_in 11 rfl _).trans ((A_eq m c 11).trans (V_main_arg12 m c))),
      ((h c).1 12).trans (((dats m 0 c).arrAt_in 12 rfl _).trans ((A_eq m c 12).trans (V_main_arg13 m c))),
      ((h c).1 13).trans (((dats m 0 c).arrAt_in 13 rfl _).trans ((A_eq m c 13).trans (V_main_arg14 m c))),
      ((h c).1 14).trans (((dats m 0 c).arrAt_in 14 rfl _).trans ((A_eq m c 14).trans (V_main_arg15 m c))),
      ((h c).1 15).trans (((dats m 0 c).arrAt_in 15 rfl _).trans ((A_eq m c 15).trans (V_main_arg16 m c)))⟩)
    (run_main m ρ)

end Cert.KernelIdeal.Result

end
-- ==== Proof.ReferenceEnergies.lean ====
/-
  The reference's atom energies are the routed energies of its arguments.

  The host program evaluates both experts on ALL 131072 rows at once — three `dot_general`s each, the biases as
  vectors broadcast over the rows in two steps, `tanh` between — reshapes each `[131072, 1]` column of energies to a
  vector and selects by `type == 0`. Read at an atom `i` through the generated read-at-an-index lemmas, each stage
  is the stage of `Cert.AtomNet` at row `i`: a `dot_general` at `(r, j)` is the sum over the contracted coordinate of
  left `(r, k)` times right `(k, j)`; a bias reads the vector at the column; the reshape reads the column at
  `(i, 0)`. The second expert's stages are the first's with the other seven parameter arrays (the same term), so one
  chain serves both. The program's last lines — the per-molecule mean — are applied to these energies unopened.
-/
import proofs.«144105_j3659312136806_1_alg».proof.Proof.Gen.ReferenceIdeal.Read
import proofs.«144105_j3659312136806_1_alg».proof.Proof.AtomNet
import Idealize.ShloMosaic.Lib.ValueIdx

set_option maxRecDepth 16384

noncomputable section

namespace Cert.ReferenceIdeal.RefValue

open Cert.ReferenceIdeal Cert.ReferenceIdeal.Gen Cert.ReferenceIdeal.Read Idealize.ShloMosaic Idealize.ShloMosaic.TcCoe
open Idealize.ShloMosaic.ValueIdx Cert.AtomNet

/-- The first hidden layer at `(r, j)`: hidden unit `j` of row `r`. -/
theorem first_layer (x0 : (⟨S131072x128, .f32⟩ : BufTy).Contents (Elt Ideal)) (W1 : (⟨S128x512, .f32⟩ : BufTy).Contents (Elt Ideal)) (b1 : (⟨S512, .f32⟩ : BufTy).Contents (Elt Ideal))
    (r : Fin 131072) (j : Fin 512) :
    val_main_v4 (F := Ideal) x0 W1 b1 (ix2 r j) = hidden1 W1 b1 (fun i => x0 (ix2 r i)) j := by
  rw [val_main_v4_apply, val_main_v3_apply, val_main_v0_apply, val_main_v2_apply, val_main_v1_apply]
  have e1 : ∀ k : Fin 128, lidx_main_v0 (ix2 r j) k = ix2 r k := fun k => funext fun a => by match a with | ⟨0, _⟩ => rfl | ⟨1, _⟩ => rfl
  have e2 : ∀ k : Fin 128, ridx_main_v0 (ix2 r j) k = ix2 k j := fun k => funext fun a => by match a with | ⟨0, _⟩ => rfl | ⟨1, _⟩ => rfl
  have e3 : idx_main_v1 (idx_main_v2 (ix2 r j)) = ix1 j := funext fun a => by match a with | ⟨0, _⟩ => rfl
  simp only [e1, e2, e3]
  rfl

/-- The second hidden layer at `(r, k)`: hidden unit `k` over the first layer of row `r`. -/
theorem second_layer (x0 : (⟨S131072x128, .f32⟩ : BufTy).Contents (Elt Ideal)) (W1 : (⟨S128x512, .f32⟩ : BufTy).Contents (Elt Ideal)) (b1 : (⟨S512, .f32⟩ : BufTy).Contents (Elt Ideal))
    (W2 : (⟨S512x512, .f32⟩ : BufTy).Contents (Elt Ideal)) (b2 : (⟨S512, .f32⟩ : BufTy).Contents (Elt Ideal)) (r : Fin 131072) (k : Fin 512) :
    val_main_v9 (F := Ideal) x0 W1 b1 W2 b2 (ix2 r k) = hidden2 W2 b2 (hidden1 W1 b1 (fun i => x0 (ix2 r i))) k := by
  rw [val_main_v9_apply, val_main_v8_apply, val_main_v5_apply, val_main_v7_apply, val_main_v6_apply]
  have e1 : ∀ j : Fin 512, lidx_main_v5 (ix2 r k) j = ix2 r j := fun j => funext fun a => by match a with | ⟨0, _⟩ => rfl | ⟨1, _⟩ => rfl
  have e2 : ∀ j : Fin 512, ridx_main_v5 (ix2 r k) j = ix2 j k := fun j => funext fun a => by match a with | ⟨0, _⟩ => rfl | ⟨1, _⟩ => rfl
  have e3 : idx_main_v6 (idx_main_v7 (ix2 r k)) = ix1 k := funext fun a => by match a with | ⟨0, _⟩ => rfl
  simp only [e1, e2, e3, first_layer]
  rfl

/-- The first expert's energy of atom `i`: its network of row `i`. -/
theorem expert_apply (x0 : (⟨S131072x128, .f32⟩ : BufTy).Contents (Elt Ideal)) (W1 : (⟨S128x512, .f32⟩ : BufTy).Contents (Elt Ideal)) (b1 : (⟨S512, .f32⟩ : BufTy).Contents (Elt Ideal))
    (W2 : (⟨S512x512, .f32⟩ : BufTy).Contents (Elt Ideal)) (b2 : (⟨S512, .f32⟩ : BufTy).Contents (Elt Ideal)) (W3 : (⟨S512x1, .f32⟩ : BufTy).Contents (Elt Ideal)) (b3 off : (⟨S1, .f32⟩ : BufTy).Contents (Elt Ideal))
    (i : S131072.Idx) :
    val_main_v17 (F := Ideal) x0 W1 b1 W2 b2 W3 b3 off i
      = net ⟨W1, b1, W2, b2, W3, b3, off⟩ (fun k => x0 (ix2 (i 0) k)) := by
  rw [val_main_v17_apply, val_main_v16_apply, val_main_v13_apply, val_main_v10_apply, val_main_v12_apply,
    val_main_v11_apply, val_main_v15_apply, val_main_v14_apply]
  have e1 : ∀ k : Fin 512, lidx_main_v10 (idx_main_v17 i) k = ix2 (i 0) k := fun k => funext fun a => by
    match a with
    | ⟨0, _⟩ => exact Fin.ext (Nat.div_one _)
    | ⟨1, _⟩ => rfl
  have e2 : ∀ k : Fin 512, ridx_main_v10 (idx_main_v17 i) k = ix2 k (0 : Fin 1) := fun k => funext fun a => by match a with | ⟨0, _⟩ => rfl | ⟨1, _⟩ => rfl
  have e3 : idx_main_v11 (idx_main_v12 (idx_main_v17 i)) = ix1 (0 : Fin 1) := funext fun a => by match a with | ⟨0, _⟩ => rfl
  have e4 : idx_main_v14 (idx_main_v15 (idx_main_v17 i)) = ix1 (0 : Fin 1) := funext fun a => by match a with | ⟨0, _⟩ => rfl
  have hs : (∑ k : Fin 512, val_main_v9 (F := Ideal) x0 W1 b1 W2 b2 (ix2 (i 0) k) * W3 (ix2 k (0 : Fin 1)))
      = ∑ k : Fin 512, hidden2 W2 b2 (hidden1 W1 b1 (fun l => x0 (ix2 (i 0) l))) k * W3 (ix2 k (0 : Fin 1)) :=
    Finset.sum_congr rfl fun k _ => congrArg (· * W3 (ix2 k (0 : Fin 1))) (second_layer x0 W1 b1 W2 b2 (i 0) k)
  simp only [e1, e2, e3, e4]
  exact congrArg (fun s : EReal => s + b3 (ix1 (0 : Fin 1)) + off (ix1 (0 : Fin 1))) hs

/-- The second expert's stages are the first's at the other parameter arrays. -/
theorem second_expert_eq (x0 : (⟨S131072x128, .f32⟩ : BufTy).Contents (Elt Ideal)) (W1 : (⟨S128x512, .f32⟩ : BufTy).Contents (Elt Ideal)) (b1 : (⟨S512, .f32⟩ : BufTy).Contents (Elt Ideal))
    (W2 : (⟨S512x512, .f32⟩ : BufTy).Contents (Elt Ideal)) (b2 : (⟨S512, .f32⟩ : BufTy).Contents (Elt Ideal)) (W3 : (⟨S512x1, .f32⟩ : BufTy).Contents (Elt Ideal)) (b3 off : (⟨S1, .f32⟩ : BufTy).Contents (Elt Ideal)) :
    val_main_v35 (F := Ideal) x0 W1 b1 W2 b2 W3 b3 off = val_main_v17 (F := Ideal) x0 W1 b1 W2 b2 W3 b3 off := rfl

/-- THE REFERENCE'S ATOM ENERGIES: the routed energies of its arguments. -/
theorem energies_eq (x0 : (⟨S131072x128, .f32⟩ : BufTy).Contents (Elt Ideal)) (x1 : (⟨S131072, .i32⟩ : BufTy).Contents (Elt Ideal))
    (x3 : (⟨S128x512, .f32⟩ : BufTy).Contents (Elt Ideal)) (x4 : (⟨S512, .f32⟩ : BufTy).Contents (Elt Ideal)) (x5 : (⟨S512x512, .f32⟩ : BufTy).Contents (Elt Ideal)) (x6 : (⟨S512, .f32⟩ : BufTy).Contents (Elt Ideal))
    (x7 : (⟨S512x1, .f32⟩ : BufTy).Contents (Elt Ideal)) (x8 x9 : (⟨S1, .f32⟩ : BufTy).Contents (Elt Ideal))
    (x10 : (⟨S128x512, .f32⟩ : BufTy).Contents (Elt Ideal)) (x11 : (⟨S512, .f32⟩ : BufTy).Contents (Elt Ideal)) (x12 : (⟨S512x512, .f32⟩ : BufTy).Contents (Elt Ideal)) (x13 : (⟨S512, .f32⟩ : BufTy).Contents (Elt Ideal))
    (x14 : (⟨S512x1, .f32⟩ : BufTy).Contents (Elt Ideal)) (x15 x16 : (⟨S1, .f32⟩ : BufTy).Contents (Elt Ideal)) :
    val_main_v38 (F := Ideal) x0 x1 x3 x4 x5 x6 x7 x8 x9 x10 x11 x12 x13 x14 x15 x16
      = atomEnergy x0 x1 ⟨x3, x4, x5, x6, x7, x8, x9⟩ ⟨x10, x11, x12, x13, x14, x15, x16⟩ := by
  funext i
  rw [val_main_v38_apply, val_main_v37_apply, val_main_v36_apply, val_main_c_apply, second_expert_eq,
    expert_apply, expert_apply]
  rfl

/-- The program's last lines as one function of the atom energies and the molecule ids (the per-molecule mean),
    and the result stage as that function of the energies' stage. -/
def perMolecule (e : (⟨S131072, .f32⟩ : BufTy).Contents (Elt Ideal)) (mol : (⟨S131072, .i32⟩ : BufTy).Contents (Elt Ideal)) : (⟨S1024x1, .f32⟩ : BufTy).Contents (Elt Ideal) :=
  broadcastInDim S1024x1 ![0] bcast_S1024_S1024x1_0
    (Host.divf (F := Ideal)
      (Host.scatterAdd (F := Ideal) scatter_S1024_S131072x1_S131072_n_0_0_1
        (broadcastInDim S1024 ![] bcast_S_S1024 (constant (F := Ideal) S_ .f32 0x00000000#32))
        (broadcastInDim S131072x1 ![0] bcast_S131072_S131072x1_0 mol) e)
      (maximumf (F := Ideal)
        (Host.scatterAdd (F := Ideal) scatter_S1024_S131072x1_S131072_n_0_0_1
          (broadcastInDim S1024 ![] bcast_S_S1024 (constant (F := Ideal) S_ .f32 0x00000000#32))
          (broadcastInDim S131072x1 ![0] bcast_S131072_S131072x1_0 mol)
          (broadcastInDim S131072 ![] bcast_S_S131072 (constant (F := Ideal) S_ .f32 0x3F800000#32)))
        (broadcastInDim S1024 ![] bcast_S_S1024 (constant (F := Ideal) S_ .f32 0x3F800000#32))))

theorem result_eq (x0 : (⟨S131072x128, .f32⟩ : BufTy).Contents (Elt Ideal)) (x1 x2 : (⟨S131072, .i32⟩ : BufTy).Contents (Elt Ideal))
    (x3 : (⟨S128x512, .f32⟩ : BufTy).Contents (Elt Ideal)) (x4 : (⟨S512, .f32⟩ : BufTy).Contents (Elt Ideal)) (x5 : (⟨S512x512, .f32⟩ : BufTy).Contents (Elt Ideal)) (x6 : (⟨S512, .f32⟩ : BufTy).Contents (Elt Ideal))
    (x7 : (⟨S512x1, .f32⟩ : BufTy).Contents (Elt Ideal)) (x8 x9 : (⟨S1, .f32⟩ : BufTy).Contents (Elt Ideal))
    (x10 : (⟨S128x512, .f32⟩ : BufTy).Contents (Elt Ideal)) (x11 : (⟨S512, .f32⟩ : BufTy).Contents (Elt Ideal)) (x12 : (⟨S512x512, .f32⟩ : BufTy).Contents (Elt Ideal)) (x13 : (⟨S512, .f32⟩ : BufTy).Contents (Elt Ideal))
    (x14 : (⟨S512x1, .f32⟩ : BufTy).Contents (Elt Ideal)) (x15 x16 : (⟨S1, .f32⟩ : BufTy).Contents (Elt Ideal)) :
    val_main_v49 (F := Ideal) x0 x1 x2 x3 x4 x5 x6 x7 x8 x9 x10 x11 x12 x13 x14 x15 x16
      = perMolecule (atomEnergy x0 x1 ⟨x3, x4, x5, x6, x7, x8, x9⟩ ⟨x10, x11, x12, x13, x14, x15, x16⟩) x2 := by
  rw [← energies_eq]
  rfl

end Cert.ReferenceIdeal.RefValue

end
-- ==== Proof.lean ====
/-
  A type-routed atomic network with a per-molecule mean: the tiled kernel against the whole-array reference.

  Each of 131072 atoms has 128 descriptors and a type. Two experts — two hidden layers of 512 `tanh` units and a
  linear read-out to one number plus two scalar offsets — each give the atom an energy, and the atom keeps the first
  expert's if its type is `0`, the second's otherwise. The energies are then summed per molecule along sorted molecule
  ids (a scatter-add), divided by the molecule's atom count (at least one), and returned as a column of 1024.

  The kernel evaluates the atoms 2048 at a time over a grid of 64 points, with the parameter arrays resident and
  each matrix product taken after a cast to a narrower float format; the reference evaluates all atoms at once. On
  the extended reals the casts are the identity and every matrix product is the plain sum over the contracted
  coordinate, so both compute, atom by atom, the same function of the atom's own row (`Cert.AtomNet.atomEnergy`):
  the kernel because each grid point's stored vector is its block of that function and the 64 blocks tile the array
  (Proof/KernelBlock.lean, Proof/KernelArray.lean), the reference by reading its stages at an index
  (Proof/ReferenceEnergies.lean). The per-molecule mean is the same lines in both programs, applied to equal energies
  and the same ids (Proof/KernelRun.lean), so the results agree entry by entry. No arithmetic law is used beyond the
  definitions — the two sides sum the same terms over the same index sets — so the finiteness of the inputs is never
  needed. The kernel's idealization rewrote nothing, so there is nothing to preserve.
-/
import proofs.«144105_j3659312136806_1_alg».proof.Defs
import proofs.«144105_j3659312136806_1_alg».proof.Proof.Gen.Kernel
import proofs.«144105_j3659312136806_1_alg».proof.Proof.Gen.Kernel.Skeleton
import proofs.«144105_j3659312136806_1_alg».proof.Proof.Gen.Kernel.Launch
import proofs.«144105_j3659312136806_1_alg».proof.Proof.Gen.Kernel.Points
import proofs.«144105_j3659312136806_1_alg».proof.Proof.Gen.Kernel.Frame
import proofs.«144105_j3659312136806_1_alg».proof.Proof.Gen.KernelIdeal
import proofs.«144105_j3659312136806_1_alg».proof.Proof.Gen.KernelIdeal.Skeleton
import proofs.«144105_j3659312136806_1_alg».proof.Proof.Gen.KernelIdeal.Launch
import proofs.«144105_j3659312136806_1_alg».proof.Proof.Gen.KernelIdeal.Points
import proofs.«144105_j3659312136806_1_alg».proof.Proof.Gen.KernelIdeal.Frame
import proofs.«144105_j3659312136806_1_alg».proof.Proof.Gen.ReferenceIdeal
import proofs.«144105_j3659312136806_1_alg».proof.Proof.Gen.Pre_finite_inputs
import proofs.«144105_j3659312136806_1_alg».proof.Proof.Gen.ReferenceIdeal.Run
import proofs.«144105_j3659312136806_1_alg».proof.Proof.Gen.ReferenceIdeal.Read
import proofs.«144105_j3659312136806_1_alg».proof.Proof.KernelRun
import proofs.«144105_j3659312136806_1_alg».proof.Proof.ReferenceEnergies
import Idealize.ShloMosaic.Adequacy
import Idealize.ShloMosaic.Init

set_option maxRecDepth 16384

noncomputable section

namespace Cert.Proof

open Idealize.ShloMosaic Idealize.ShloMosaic.TcCoe Idealize.SL.Sem

/-- The two programs end with the same lines: the per-molecule mean is one function of the energies and the ids. -/
theorem perMolecule_eq (e : Vec Ideal Cert.KernelIdeal.S131072 .f32) (mol : Vec Ideal Cert.KernelIdeal.S131072 .i32) :
    Cert.ReferenceIdeal.RefValue.perMolecule e mol = Cert.KernelIdeal.Result.perMolecule e mol := rfl

/-- The word-level kernel runs and leaves its arguments as launched (the generated frame). -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the per-molecule mean of the routed energies of
    those arguments: the kernel's result by its run, the reference's by reading its stages. -/
theorem algebraic : Cert.algebraic_KernelIdeal_ReferenceIdeal := by
  intro m ρ m' ρ' _ hagree
  refine ⟨fun c => Cert.KernelIdeal.Result.perMolecule (Cert.KernelIdeal.Energies.energies m c)
      (m ((c.tc : Thread Cert.KernelIdeal.nD Cert.KernelIdeal.τ).loc Cert.KernelIdeal.main_arg2)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v49_eq, Cert.ReferenceIdeal.RefValue.result_eq]
  obtain ⟨h0, h1, h2, h3, h4, h5, h6, h7, h8, h9, h10, h11, h12, h13, h14, h15, h16⟩ := hagree c
  rw [h0, h1, h2, h3, h4, h5, h6, h7, h8, h9, h10, h11, h12, h13, h14, h15, h16, perMolecule_eq]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
